-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S5000x64 .f32
  ∧ IdealRules.sign_bit.Statement Cert.KernelIdeal.S5000x64 .f32
  ∧ IdealRules.sign_bit.Statement Cert.KernelIdeal.S5000x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v53)) (v3 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_v54) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_v125) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S150000x64 : Shape := ⟨2, ![150000, 64]⟩
abbrev S2000000 : Shape := ⟨1, ![2000000]⟩
abbrev S3x250000x64 : Shape := ⟨3, ![3, 250000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S2000000 : S_.BroadcastsInDim S2000000 (![] : Fin 0 → Fin S2000000.rank)
  reducesTo_S2000000_S_d0 : S2000000.ReducesTo [0] S_
  bcast_S_S3x250000x64 : S_.BroadcastsInDim S3x250000x64 (![] : Fin 0 → Fin S3x250000x64.rank)
  reducesTo_S3x250000x64_S_d0_1_2 : S3x250000x64.ReducesTo [0, 1, 2] S_

variable [Facts]

def fn_part1 {F : FTy → Type} [FloatOps F] (main_v13 : IVec S_ 1) (main_v16 : IVec S3x250000x64 1) : IVec S_ 1 :=
  let main_c_5 : IVec S_ 1 := constantI S_ 1 1#1
  let main_v17 : IVec S_ 1 := (fun x v => Host.reduce IntOp.andi x v reducesTo_S3x250000x64_S_d0_1_2 h_S_) main_v16 main_c_5
  let main_v18 : IVec S_ 1 := andi main_v13 main_v17
  main_v18

def fn {F : FTy → Type} [FloatOps F] (main_arg0 : FVec F S100000x64 .f32) (main_arg1 : FVec F S150000x64 .f32) (main_arg2 : FVec F S2000000 .f32) (main_arg3 : FVec F S3x250000x64 .f32) (main_arg4 : IVec S2000000 32) (main_arg5 : IVec S2000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S3x250000x64 .f32 := Host.absf main_arg3
  let main_cst_4 : FVec F S_ .f32 := constant S_ .f32 0x7F800000#32
  let main_v15 : FVec F S3x250000x64 .f32 := broadcastInDim S3x250000x64 ![] bcast_S_S3x250000x64 main_cst_4
  let main_v16 : IVec S3x250000x64 1 := cmpf .olt main_v14 main_v15
  fn_part1 (F := F) main_v13 main_v16
-- ==== Kernel.lean ====
abbrev S100000x64 : Shape := ⟨2, ![100000, 64]⟩
abbrev S150000x64 : Shape := ⟨2, ![150000, 64]⟩
abbrev S2000000 : Shape := ⟨1, ![2000000]⟩
abbrev S3x250000x64 : Shape := ⟨3, ![3, 250000, 64]⟩
abbrev S250000x64 : Shape := ⟨2, ![250000, 64]⟩
abbrev S2000000x1 : Shape := ⟨2, ![2000000, 1]⟩
abbrev S_ : Shape := ⟨0, ![]⟩
abbrev S2000000x64 : Shape := ⟨2, ![2000000, 64]⟩
abbrev S1x250000x64 : Shape := ⟨3, ![1, 250000, 64]⟩
abbrev S5000x64 : Shape := ⟨2, ![5000, 64]⟩
abbrev S5000 : Shape := ⟨1, ![5000]⟩
abbrev S5000x1 : Shape := ⟨2, ![5000, 1]⟩
abbrev S10000x64 : Shape := ⟨2, ![10000, 64]⟩
abbrev S10000 : Shape := ⟨1, ![10000]⟩
abbrev S10000x1 : Shape := ⟨2, ![10000, 1]⟩

abbrev nBuf : Space → Nat
  | .hbm => 73
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S150000x64, .f32⟩
  | .hbm, ⟨2, _⟩ => ⟨S2000000, .f32⟩
  | .hbm, ⟨3, _⟩ => ⟨S3x250000x64, .f32⟩
  | .hbm, ⟨4, _⟩ => ⟨S2000000, .i32⟩
  | .hbm, ⟨5, _⟩ => ⟨S2000000, .i32⟩
  | .hbm, ⟨6, _⟩ => ⟨S250000x64, .f32⟩
  | .hbm, ⟨7, _⟩ => ⟨S2000000x1, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x64, .f32⟩
  | .hbm, ⟨17, _⟩ => ⟨S2000000x64, .f32⟩
  | .hbm, ⟨18, _⟩ => ⟨S2000000x64, .f32⟩
  | .hbm, ⟨19, _⟩ => ⟨S_, .f32⟩
  | .hbm, ⟨20, _⟩ => ⟨S250000x64, .f32⟩
  | .hbm, ⟨21, _⟩ => ⟨S2000000x1, .i32⟩
  | .hbm, ⟨22, _⟩ => ⟨S250000x64, .f32⟩
  | .hbm, ⟨23, _⟩ => ⟨S1x250000x64, .f32⟩
  | .hbm, ⟨24, _⟩ => ⟨S250000x64, .f32⟩
  | .hbm, ⟨25, _⟩ => ⟨S250000x64, .f32⟩
  | .hbm, ⟨26, _⟩ => ⟨S250000x64, .f32⟩
  | .hbm, ⟨27, _⟩ => ⟨S2000000x1, .f32⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S2000000x64, .f32⟩
  | .hbm, ⟨37, _⟩ => ⟨S2000000x64, .f32⟩
  | .hbm, ⟨38, _⟩ => ⟨S2000000x64, .f32⟩
  | .hbm, ⟨39, _⟩ => ⟨S_, .f32⟩
  | .hbm, ⟨40, _⟩ => ⟨S250000x64, .f32⟩
  | .hbm, ⟨41, _⟩ => ⟨S2000000x1, .i32⟩
  | .hbm, ⟨42, _⟩ => ⟨S250000x64, .f32⟩
  | .hbm, ⟨43, _⟩ => ⟨S1x250000x64, .f32⟩
  | .hbm, ⟨44, _⟩ => ⟨S250000x64, .f32⟩
  | .hbm, ⟨45, _⟩ => ⟨S250000x64, .f32⟩
  | .hbm, ⟨46, _⟩ => ⟨S250000x64, .f32⟩
  | .hbm, ⟨47, _⟩ => ⟨S2000000x1, .f32⟩
  | .hbm, ⟨48, _⟩ => ⟨S_, .i32⟩
  | .hbm, ⟨49, _⟩ => ⟨S2000000, .i32⟩
  | .hbm, ⟨50, _⟩ => ⟨S2000000, .i1⟩
  | .hbm, ⟨51, _⟩ => ⟨S_, .i32⟩
  | .hbm, ⟨52, _⟩ => ⟨S2000000, .i32⟩
  | .hbm, ⟨53, _⟩ => ⟨S2000000, .i32⟩
  | .hbm, ⟨54, _⟩ => ⟨S2000000, .i32⟩
  | .hbm, ⟨55, _⟩ => ⟨S2000000x1, .i32⟩
  | .hbm, ⟨56, _⟩ => ⟨S2000000x64, .f32⟩
  | .hbm, ⟨57, _⟩ => ⟨S2000000x64, .f32⟩
  | .hbm, ⟨58, _⟩ => ⟨S2000000x64, .f32⟩
  | .hbm, ⟨59, _⟩ => ⟨S_, .f32⟩
  | .hbm, ⟨60, _⟩ => ⟨S250000x64, .f32⟩
  | .hbm, ⟨61, _⟩ => ⟨S2000000x1, .i32⟩
  | .hbm, ⟨62, _⟩ => ⟨S250000x64, .f32⟩
  | .hbm, ⟨63, _⟩ => ⟨S1x250000x64, .f32⟩
  | .hbm, ⟨64, _⟩ => ⟨S250000x64, .f32⟩
  | .hbm, ⟨65, _⟩ => ⟨S250000x64, .f32⟩
  | .hbm, ⟨66, _⟩ => ⟨S250000x64, .f32⟩
  | .hbm, ⟨67, _⟩ => ⟨S250000x64, .f32⟩
  | .hbm, ⟨68, _⟩ => ⟨S250000x64, .f32⟩
  | .hbm, ⟨69, _⟩ => ⟨S100000x64, .f32⟩
  | .hbm, ⟨70, _⟩ => ⟨S150000x64, .f32⟩
  | .hbm, ⟨71, _⟩ => ⟨S100000x64, .f32⟩
  | .hbm, ⟨72, _⟩ => ⟨S150000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc4_sem0_0 : DmaSem sig := 34
abbrev cc4_sem0_1 : DmaSem sig := 35
abbrev cc4_sem1_0 : DmaSem sig := 36
abbrev cc4_sem1_1 : DmaSem sig := 37

abbrev nD : Nat := 1
abbrev τ : Topo := Topo.v7x

variable {F : FTy → Type} [BitOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  concatenates_S100000x64_S150000x64_S250000x64_d0 : Shape.Concatenates [S100000x64, S150000x64] S250000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S250000x64 : S_.BroadcastsInDim S250000x64 (![] : Fin 0 → Fin S250000x64.rank)
  slices_S3x250000x64_S1x250000x64_0_0_0 : S3x250000x64.Slices ![0, 0, 0] S1x250000x64
  shapeCasts_S1x250000x64_S250000x64 : S1x250000x64.ShapeCasts S250000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  slices_S3x250000x64_S1x250000x64_1_0_0 : S3x250000x64.Slices ![1, 0, 0] S1x250000x64
  slices_S3x250000x64_S1x250000x64_2_0_0 : S3x250000x64.Slices ![2, 0, 0] S1x250000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  slices_S250000x64_S100000x64_0_0 : S250000x64.Slices ![0, 0] S100000x64
  slices_S250000x64_S150000x64_100000_0 : S250000x64.Slices ![100000, 0] S150000x64
  gather_S250000x64_S2000000x1_S2000000x64_1_0_n_n_0_1_164_wf : GatherDims.WF S250000x64 S2000000x1 S2000000x64 [1] [0] [] [0] [] 1 ![1, 64]
  scatter_S250000x64_S2000000x1_S2000000x64_1_0_0_1_wf : ScatterDims.WF S250000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S250000x64.size a
  hwx0_0 : ∀ i : grid0.Coords, EltTy.bits .f32 = 32 ∨ (Rect.block (s := S250000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S250000x64.size a
  hwx0_1 : ∀ i : grid0.Coords, EltTy.bits .f32 = 32 ∨ (Rect.block (s := S250000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S250000x64.size a
  hwx0_2 : ∀ i : grid0.Coords, EltTy.bits .f32 = 32 ∨ (Rect.block (s := S250000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S250000x64.size a
  hwx0_3 : ∀ i : grid0.Coords, EltTy.bits .f32 = 32 ∨ (Rect.block (s := S250000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S250000x64.size a
  hwx0_4 : ∀ i : grid0.Coords, EltTy.bits .f32 = 32 ∨ (Rect.block (s := S250000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S250000x64.size a
  hwx1_0 : ∀ i : grid1.Coords, EltTy.bits .f32 = 32 ∨ (Rect.block (s := S250000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S250000x64.size a
  hwx1_1 : ∀ i : grid1.Coords, EltTy.bits .f32 = 32 ∨ (Rect.block (s := S250000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S250000x64.size a
  hwx1_2 : ∀ i : grid1.Coords, EltTy.bits .f32 = 32 ∨ (Rect.block (s := S250000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S250000x64.size a
  hwx1_3 : ∀ i : grid1.Coords, EltTy.bits .f32 = 32 ∨ (Rect.block (s := S250000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S250000x64.size a
  hwx1_4 : ∀ i : grid1.Coords, EltTy.bits .f32 = 32 ∨ (Rect.block (s := S250000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S250000x64.size a
  hwx2_0 : ∀ i : grid2.Coords, EltTy.bits .f32 = 32 ∨ (Rect.block (s := S250000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S250000x64.size a
  hwx2_1 : ∀ i : grid2.Coords, EltTy.bits .f32 = 32 ∨ (Rect.block (s := S250000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S250000x64.size a
  hwx2_2 : ∀ i : grid2.Coords, EltTy.bits .f32 = 32 ∨ (Rect.block (s := S250000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S250000x64.size a
  hwx2_3 : ∀ i : grid2.Coords, EltTy.bits .f32 = 32 ∨ (Rect.block (s := S250000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S250000x64.size a
  hwx2_4 : ∀ i : grid2.Coords, EltTy.bits .f32 = 32 ∨ (Rect.block (s := S250000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S250000x64.size a
  hwx3_0 : ∀ i : grid3.Coords, EltTy.bits .f32 = 32 ∨ (Rect.block (s := S250000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S250000x64.size a
  hwx3_1 : ∀ i : grid3.Coords, EltTy.bits .f32 = 32 ∨ (Rect.block (s := S250000x64) S10000x64.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S250000x64.size a
  hwx4_0 : ∀ i : grid4.Coords, EltTy.bits .f32 = 32 ∨ (Rect.block (s := S250000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S250000x64.size a
  hwx4_1 : ∀ i : grid4.Coords, EltTy.bits .f32 = 32 ∨ (Rect.block (s := S250000x64) S10000x64.size (cc4_transform_1 i) (hinb4_1 i)).WholeWords (EltTy.packing .f32)

variable [Facts₀]

def gather_S250000x64_S2000000x1_S2000000x64_1_0_n_n_0_1_164 : GatherDims S250000x64 S2000000x1 S2000000x64 where
  offsetDims := [1]
  collapsedSliceDims := [0]
  operandBatchingDims := []
  startIndicesBatchingDims := []
  startIndexMap := [0]
  indexVectorDim := 1
  sliceSizes := ![1, 64]
  wf := gather_S250000x64_S2000000x1_S2000000x64_1_0_n_n_0_1_164_wf
def scatter_S250000x64_S2000000x1_S2000000x64_1_0_0_1 : ScatterDims S250000x64 S2000000x1 S2000000x64 where
  updateWindowDims := [1]
  insertedWindowDims := [0]
  scatterDimsToOperandDims := [0]
  indexVectorDim := 1
  wf := scatter_S250000x64_S2000000x1_S2000000x64_1_0_0_1_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16_1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32_1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v48_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48_1) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S10000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v16_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S10000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x64 : Shape := ⟨2, ![100000, 64]⟩
abbrev S150000x64 : Shape := ⟨2, ![150000, 64]⟩
abbrev S2000000 : Shape := ⟨1, ![2000000]⟩
abbrev S3x250000x64 : Shape := ⟨3, ![3, 250000, 64]⟩
abbrev S250000x64 : Shape := ⟨2, ![250000, 64]⟩
abbrev S2000000x1 : Shape := ⟨2, ![2000000, 1]⟩
abbrev S_ : Shape := ⟨0, ![]⟩
abbrev S2000000x64 : Shape := ⟨2, ![2000000, 64]⟩
abbrev S1x250000x64 : Shape := ⟨3, ![1, 250000, 64]⟩
abbrev S250000 : Shape := ⟨1, ![250000]⟩
abbrev S250000x1 : Shape := ⟨2, ![250000, 1]⟩
abbrev S100000 : Shape := ⟨1, ![100000]⟩
abbrev S100000x1 : Shape := ⟨2, ![100000, 1]⟩
abbrev S150000 : Shape := ⟨1, ![150000]⟩
abbrev S150000x1 : Shape := ⟨2, ![150000, 1]⟩

abbrev nBuf : Space → Nat
  | .hbm => 159
  | .vmem => 0
  | .smem => 0
  | _ => 0

abbrev hbmTy0_0 (i : Nat) : BufTy := match i % 128 with
  | 0 => ⟨S100000x64, .f32⟩
  | 1 => ⟨S150000x64, .f32⟩
  | 2 => ⟨S2000000, .f32⟩
  | 3 => ⟨S3x250000x64, .f32⟩
  | 4 => ⟨S2000000, .i32⟩
  | 5 => ⟨S2000000, .i32⟩
  | 6 => ⟨S250000x64, .f32⟩
  | 7 => ⟨S2000000x1, .f32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S2000000x1, .i32⟩
  | 16 => ⟨S2000000x64, .f32⟩
  | 17 => ⟨S2000000x64, .f32⟩
  | 18 => ⟨S2000000x64, .f32⟩
  | 19 => ⟨S_, .f32⟩
  | 20 => ⟨S250000x64, .f32⟩
  | 21 => ⟨S2000000x1, .i32⟩
  | 22 => ⟨S250000x64, .f32⟩
  | 23 => ⟨S250000x64, .f32⟩
  | 24 => ⟨S1x250000x64, .f32⟩
  | 25 => ⟨S250000x64, .f32⟩
  | 26 => ⟨S250000x64, .f32⟩
  | 27 => ⟨S_, .f32⟩
  | 28 => ⟨S250000, .f32⟩
  | 29 => ⟨S250000x1, .f32⟩
  | 30 => ⟨S_, .f32⟩
  | 31 => ⟨S250000x1, .f32⟩
  | 32 => ⟨S250000x1, .f32⟩
  | 33 => ⟨S250000x1, .f32⟩
  | 34 => ⟨S250000x64, .f32⟩
  | 35 => ⟨S250000x64, .f32⟩
  | 36 => ⟨S250000x64, .f32⟩
  | 37 => ⟨S_, .f32⟩
  | 38 => ⟨S250000x64, .f32⟩
  | 39 => ⟨S250000x64, .f32⟩
  | 40 => ⟨S250000x64, .f32⟩
  | 41 => ⟨S250000x64, .f32⟩
  | 42 => ⟨S2000000x1, .f32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000x64, .f32⟩
  | 52 => ⟨S2000000x64, .f32⟩
  | 53 => ⟨S2000000x64, .f32⟩
  | 54 => ⟨S_, .f32⟩
  | 55 => ⟨S250000x64, .f32⟩
  | 56 => ⟨S2000000x1, .i32⟩
  | 57 => ⟨S250000x64, .f32⟩
  | 58 => ⟨S250000x64, .f32⟩
  | 59 => ⟨S1x250000x64, .f32⟩
  | 60 => ⟨S250000x64, .f32⟩
  | 61 => ⟨S250000x64, .f32⟩
  | 62 => ⟨S_, .f32⟩
  | 63 => ⟨S250000, .f32⟩
  | 64 => ⟨S250000x1, .f32⟩
  | 65 => ⟨S_, .f32⟩
  | 66 => ⟨S250000x1, .f32⟩
  | 67 => ⟨S250000x1, .f32⟩
  | 68 => ⟨S250000x1, .f32⟩
  | 69 => ⟨S250000x64, .f32⟩
  | 70 => ⟨S250000x64, .f32⟩
  | 71 => ⟨S250000x64, .f32⟩
  | 72 => ⟨S_, .f32⟩
  | 73 => ⟨S250000x64, .f32⟩
  | 74 => ⟨S250000x64, .f32⟩
  | 75 => ⟨S250000x64, .f32⟩
  | 76 => ⟨S250000x64, .f32⟩
  | 77 => ⟨S2000000x1, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x64, .f32⟩
  | 87 => ⟨S2000000x64, .f32⟩
  | 88 => ⟨S2000000x64, .f32⟩
  | 89 => ⟨S_, .f32⟩
  | 90 => ⟨S250000x64, .f32⟩
  | 91 => ⟨S2000000x1, .i32⟩
  | 92 => ⟨S250000x64, .f32⟩
  | 93 => ⟨S250000x64, .f32⟩
  | 94 => ⟨S1x250000x64, .f32⟩
  | 95 => ⟨S250000x64, .f32⟩
  | 96 => ⟨S250000x64, .f32⟩
  | 97 => ⟨S_, .f32⟩
  | 98 => ⟨S250000, .f32⟩
  | 99 => ⟨S250000x1, .f32⟩
  | 100 => ⟨S_, .f32⟩
  | 101 => ⟨S250000x1, .f32⟩
  | 102 => ⟨S250000x1, .f32⟩
  | 103 => ⟨S250000x1, .f32⟩
  | 104 => ⟨S250000x64, .f32⟩
  | 105 => ⟨S250000x64, .f32⟩
  | 106 => ⟨S250000x64, .f32⟩
  | 107 => ⟨S_, .f32⟩
  | 108 => ⟨S250000x64, .f32⟩
  | 109 => ⟨S250000x64, .f32⟩
  | 110 => ⟨S250000x64, .f32⟩
  | 111 => ⟨S250000x64, .f32⟩
  | 112 => ⟨S_, .f32⟩
  | 113 => ⟨S250000x64, .f32⟩
  | 114 => ⟨S250000x64, .f32⟩
  | 115 => ⟨S100000x64, .f32⟩
  | 116 => ⟨S150000x64, .f32⟩
  | 117 => ⟨S100000x64, .f32⟩
  | 118 => ⟨S150000x64, .f32⟩
  | 119 => ⟨S100000x64, .f32⟩
  | 120 => ⟨S_, .f32⟩
  | 121 => ⟨S100000, .f32⟩
  | 122 => ⟨S100000x1, .f32⟩
  | 123 => ⟨S_, .f32⟩
  | 124 => ⟨S100000x1, .f32⟩
  | 125 => ⟨S100000x1, .f32⟩
  | 126 => ⟨S100000x1, .f32⟩
  | 127 => ⟨S100000x64, .f32⟩
  | _ => ⟨S100000x64, .f32⟩

abbrev hbmTy0_1 (i : Nat) : BufTy := match i % 128 with
  | 0 => ⟨S100000x64, .f32⟩
  | 1 => ⟨S150000x64, .f32⟩
  | 2 => ⟨S_, .f32⟩
  | 3 => ⟨S150000, .f32⟩
  | 4 => ⟨S150000x1, .f32⟩
  | 5 => ⟨S_, .f32⟩
  | 6 => ⟨S150000x1, .f32⟩
  | 7 => ⟨S150000x1, .f32⟩
  | 8 => ⟨S150000x1, .f32⟩
  | 9 => ⟨S150000x64, .f32⟩
  | 10 => ⟨S150000x64, .f32⟩
  | 11 => ⟨S100000x64, .f32⟩
  | 12 => ⟨S_, .f32⟩
  | 13 => ⟨S100000, .f32⟩
  | 14 => ⟨S100000x1, .f32⟩
  | 15 => ⟨S_, .f32⟩
  | 16 => ⟨S100000x1, .f32⟩
  | 17 => ⟨S100000x1, .f32⟩
  | 18 => ⟨S100000x1, .f32⟩
  | 19 => ⟨S100000x64, .f32⟩
  | 20 => ⟨S100000x64, .f32⟩
  | 21 => ⟨S150000x64, .f32⟩
  | 22 => ⟨S_, .f32⟩
  | 23 => ⟨S150000, .f32⟩
  | 24 => ⟨S150000x1, .f32⟩
  | 25 => ⟨S_, .f32⟩
  | 26 => ⟨S150000x1, .f32⟩
  | 27 => ⟨S150000x1, .f32⟩
  | 28 => ⟨S150000x1, .f32⟩
  | 29 => ⟨S150000x64, .f32⟩
  | 30 => ⟨S150000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_10 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_15 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_16 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_17 : Ref sig .tc := ⟨.hbm, 120, rfl⟩
abbrev main_v95 : Ref sig .tc := ⟨.hbm, 121, rfl⟩
abbrev main_v96 : Ref sig .tc := ⟨.hbm, 122, rfl⟩
abbrev main_cst_18 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_19 : Ref sig .tc := ⟨.hbm, 130, rfl⟩
abbrev main_v103 : Ref sig .tc := ⟨.hbm, 131, rfl⟩
abbrev main_v104 : Ref sig .tc := ⟨.hbm, 132, rfl⟩
abbrev main_cst_20 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_21 : Ref sig .tc := ⟨.hbm, 140, rfl⟩
abbrev main_v111 : Ref sig .tc := ⟨.hbm, 141, rfl⟩
abbrev main_v112 : Ref sig .tc := ⟨.hbm, 142, rfl⟩
abbrev main_cst_22 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_23 : Ref sig .tc := ⟨.hbm, 150, rfl⟩
abbrev main_v119 : Ref sig .tc := ⟨.hbm, 151, rfl⟩
abbrev main_v120 : Ref sig .tc := ⟨.hbm, 152, rfl⟩
abbrev main_cst_24 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩

abbrev nD : Nat := 1
abbrev τ : Topo := Topo.v7x

variable {F : FTy → Type} [FloatOps F]

class Facts₀ : Prop where
  concatenates_S100000x64_S150000x64_S250000x64_d0 : Shape.Concatenates [S100000x64, S150000x64] S250000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S250000x64 : S_.BroadcastsInDim S250000x64 (![] : Fin 0 → Fin S250000x64.rank)
  slices_S3x250000x64_S1x250000x64_0_0_0 : S3x250000x64.Slices ![0, 0, 0] S1x250000x64
  shapeCasts_S1x250000x64_S250000x64 : S1x250000x64.ShapeCasts S250000x64
  reducesTo_S250000x64_S250000_d1 : S250000x64.ReducesTo [1] S250000
  h_S_ : 0 < S_.numel
  bcast_S250000_S250000x1_0 : S250000.BroadcastsInDim S250000x1 (![0] : Fin 1 → Fin S250000x1.rank)
  bcast_S_S250000x1 : S_.BroadcastsInDim S250000x1 (![] : Fin 0 → Fin S250000x1.rank)
  bcast_S250000x1_S250000x64_0_1 : S250000x1.BroadcastsInDim S250000x64 (![0, 1] : Fin 2 → Fin S250000x64.rank)
  slices_S3x250000x64_S1x250000x64_1_0_0 : S3x250000x64.Slices ![1, 0, 0] S1x250000x64
  slices_S3x250000x64_S1x250000x64_2_0_0 : S3x250000x64.Slices ![2, 0, 0] S1x250000x64
  slices_S250000x64_S100000x64_0_0 : S250000x64.Slices ![0, 0] S100000x64
  slices_S250000x64_S150000x64_100000_0 : S250000x64.Slices ![100000, 0] S150000x64
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S150000x64_S150000_d1 : S150000x64.ReducesTo [1] S150000
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  gather_S250000x64_S2000000x1_S2000000x64_1_0_n_n_0_1_164_wf : GatherDims.WF S250000x64 S2000000x1 S2000000x64 [1] [0] [] [0] [] 1 ![1, 64]
  scatter_S250000x64_S2000000x1_S2000000x64_1_0_0_1_wf : ScatterDims.WF S250000x64 S2000000x1 S2000000x64 [1] [0] [0] 1

variable [Facts₀]

def gather_S250000x64_S2000000x1_S2000000x64_1_0_n_n_0_1_164 : GatherDims S250000x64 S2000000x1 S2000000x64 where
  offsetDims := [1]
  collapsedSliceDims := [0]
  operandBatchingDims := []
  startIndicesBatchingDims := []
  startIndexMap := [0]
  indexVectorDim := 1
  sliceSizes := ![1, 64]
  wf := gather_S250000x64_S2000000x1_S2000000x64_1_0_n_n_0_1_164_wf
def scatter_S250000x64_S2000000x1_S2000000x64_1_0_0_1 : ScatterDims S250000x64 S2000000x1 S2000000x64 where
  updateWindowDims := [1]
  insertedWindowDims := [0]
  scatterDimsToOperandDims := [0]
  indexVectorDim := 1
  wf := scatter_S250000x64_S2000000x1_S2000000x64_1_0_0_1_wf

class Facts : Prop extends Facts₀ where

variable [Facts]
-- ==== Proof.WholeRun.lean ====
/-
  The idealized kernel's whole run, with every buffer read.

  @main of the idealized kernel is nine segments: a stretch of host lines, then the first pallas_call, a stretch, the
  second call, a stretch, the third call, the two normalising calls one after the other, and the closing slices. The
  buffer contents at the nine boundaries are a fold from the launch memory: a host stretch applies its lines, a call
  leaves in each of its arrays what its write-backs fold to and every other buffer as it found it. The library's
  launch theorem for a list of segments gives: every weakly fair execution from a memory with zero counters
  terminates, nothing faults, and in the final state EVERY unscoped buffer of the TensorCore holds the last fold.
  The frame claim keeps of this only the argument arrays; here all of it is kept, so that the four result buffers can
  be read (KernelValue.lean).
-/
import proofs.«174214_j26199300505700_1_alg».proof.Proof.GenP.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault, and every unscoped buffer of the TensorCore ends
    at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Whole

end
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.LibHostOps.lean ====
/-
  Host operations on matrices read at an entry written by coordinates.

  • A vector `[b]` made a one-row matrix and broadcast over `a` rows reads, at `(p, q)`, the vector at `q`.
  • A vector `[a]` made a one-column matrix and broadcast over `b` columns reads, at `(p, c)`, the vector at `p`.
  • A scalar broadcast to any shape reads the scalar everywhere.
  • Two matrices joined along their columns read, left of the seam, the first, and right of it the second.
  • The host's sum over the columns of a matrix, read at row `p`, is the initial value plus the sum of that row.
  • The host's logarithm and exponential read elementwise.
  • A sum over `a + b` indices is the sum over the first `a` plus the sum over the last `b`.
-/
import Idealize.ShloMosaic.Lib.Pipeline.Value
import Idealize.ShloMosaic.Lib.ValueIdx
import Idealize.ShloMosaic.PureOps.Ideal.Laws

namespace Cert.HostOps

open Idealize.ShloMosaic Idealize.ShloMosaic.ValueIdx
open scoped BigOperators

variable {α : Type}

/-- A scalar broadcast to any shape reads the scalar at every index. -/
theorem bcast_scalar {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-row matrix. -/
theorem bcast_vec_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix broadcast over the rows. -/
theorem bcast_row_rows {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- A vector as a one-column matrix. -/
theorem bcast_vec_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A one-column matrix broadcast over the columns. -/
theorem bcast_col_cols {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- Left of the seam a column-wise join reads its first piece. -/
theorem concat_cols_left {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin a) (j : Fin c)
    (hj : j.val = k.val) :
    concatenate ⟨2, ![n, c]⟩ 1 [⟨⟨2, ![n, a]⟩, u⟩, ⟨⟨2, ![n, b]⟩, v⟩] h (ix2 p j) = u (ix2 p k) :=
  concatenate_pair_apply_left 1 u v h (ix2 p j) rfl (ix2 p k) (fun ax => by
    match ax with
    | ⟨0, _⟩ => rfl
    | ⟨1, _⟩ => exact hj.symm)

/-- Right of the seam it reads its second piece, the first piece's width taken off the column. -/
theorem concat_cols_right {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin b) (j : Fin c)
    (hj : j.val = a + k.val) :
    concatenate ⟨2, ![n, c]⟩ 1 [⟨⟨2, ![n, a]⟩, u⟩, ⟨⟨2, ![n, b]⟩, v⟩] h (ix2 p j) = v (ix2 p k) :=
  concatenate_pair_apply_right 1 u v h (ix2 p j) rfl rfl (ix2 p k) (fun ax hne => by
    match ax with
    | ⟨0, _⟩ => rfl
    | ⟨1, _⟩ => exact absurd rfl hne) (by
    show k.val + a = j.val
    omega)

/-- The host's sum over the columns, at a row. -/
theorem hostReduceAdd_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun ax => Fin.ext (by match ax with | ⟨0, _⟩ => rfl | ⟨1, _⟩ => rfl))

/-- The host's logarithm and exponential, at an index, are the extended reals'. -/
theorem hostLog_apply {s : Shape} {φ : FTy} (x : FVec Ideal s φ) (i : s.Idx) :
    Host.log (F := Ideal) x i = Ideal.log (x i) := rfl
theorem hostExp_apply {s : Shape} {φ : FTy} (x : FVec Ideal s φ) (i : s.Idx) :
    Host.exp (F := Ideal) x i = Ideal.exp (x i) := rfl

/-- A sum over `a + b` indices splits at `a`. -/
theorem sum_split {M : Type} [AddCommMonoid M] (a b : ℕ) (f : Fin (a + b) → M) :
    ∑ k, f k = ∑ k : Fin a, f (Fin.castAdd b k) + ∑ k : Fin b, f (Fin.natAdd a k) :=
  Fin.sum_univ_add f

end Cert.HostOps
-- ==== Proof.LibRowNorm.lean ====
/-
  Rows of an [a, b] matrix of extended reals, normalised.

  For a row `r : Fin b → EReal` and a guard word `ε`, `invLen ε r` is `rsqrt (max (∑ₖ rₖ·rₖ) ε)`: the inverse
  Euclidean length of the row, the sum of squares kept away from zero by the guard. Two programs' spellings of the
  [a, b] array that holds `invLen` of row `p` at every entry `(p, q)` are read here at an entry:
    * the vector spelling — a lane reduction of the squares to [a], recast as a column [a, 1], the guard broadcast to
      that column, a maximum, `rsqrt`, and the column broadcast along the lanes;
    * the host spelling — a `reduce add` of the squares from an initial zero to [a], `broadcast_in_dim` to [a, 1],
      the guard as a broadcast scalar, a maximum, the host `rsqrt`, and `broadcast_in_dim` to [a, b].
  Both are `invLen ε` of the row (a sum over `Fin b` in either case: addition of extended reals is commutative and
  associative, so the order in which a program adds the lanes does not matter, and the host's initial zero adds
  nothing). General in `a`, `b` and `ε`.
-/
import Idealize.ShloMosaic.Lib.Pipeline.Value
import Idealize.ShloMosaic.Lib.ValueIdx
import Idealize.ShloMosaic.PureOps.Ideal.Laws
import proofs.«174214_j26199300505700_1_alg».proof.Proof.LibKeepdims
import proofs.«174214_j26199300505700_1_alg».proof.Proof.LibHostOps

noncomputable section

namespace Cert.RowNorm

open Idealize.ShloMosaic Idealize.ShloMosaic.ValueIdx
open scoped BigOperators

variable {a b : ℕ}

/-- The guarded inverse length of a row: `rsqrt (max (∑ₖ rₖ·rₖ) ε)`. -/
def invLen (ε : BitVec 32) (r : Fin b → EReal) : EReal :=
  Ideal.rsqrt (max (∑ k, r k * r k) (Ideal.ofBits .f32 ε))

/-- The vector spelling, read at `(p, q)`: the inverse length of row `p`. -/
theorem vector_invLen_apply (x : FVec Ideal ⟨2, ![a, b]⟩ .f32) (ε : BitVec 32) (acc : BitVec FTy.f32.bits)
    (hred : (⟨2, ![a, b]⟩ : Shape).Reduces [1] ⟨1, ![a]⟩) (hφ : FKind.Formats FTy.f32)
    (hacc : acc = FKind.add.neutral .f32 hφ)
    (hcast : (⟨1, ![a]⟩ : Shape).ShapeCasts ⟨2, ![a, 1]⟩) (hbc : (⟨2, ![a, 1]⟩ : Shape).Broadcasts ⟨2, ![a, b]⟩)
    (p : Fin a) (q : Fin b) :
    broadcastTo ⟨2, ![a, b]⟩
        (rsqrt (maximumf (shapeCast ⟨2, ![a, 1]⟩ (multiReduction .add [1] ⟨1, ![a]⟩ (mulf x x) acc hred hφ hacc) hcast)
          (broadcast ⟨2, ![a, 1]⟩ (Scalar.ofBits .f32 ε)))) hbc (ix2 p q)
      = invLen ε (fun k => x (ix2 p k)) := by
  rw [Cert.Keepdims.broadcastTo_a1_ab_apply]
  show Ideal.rsqrt (max (shapeCast ⟨2, ![a, 1]⟩ (multiReduction .add [1] ⟨1, ![a]⟩ (mulf x x) acc hred hφ hacc) hcast (ix2 p (0 : Fin 1)))
      (Ideal.ofBits .f32 ε)) = _
  rw [Cert.Keepdims.shapeCast_a_a1_apply, Cert.Keepdims.multiReduction_add_rows]
  rfl

/-- The host spelling, read at `(p, q)`: the inverse length of row `p`. -/
theorem host_invLen_apply (x : FVec Ideal ⟨2, ![a, b]⟩ .f32) (ε : BitVec 32)
    (h' : (⟨2, ![a, b]⟩ : Shape).ReducesTo [1] ⟨1, ![a]⟩) (hu : 0 < (⟨0, ![]⟩ : Shape).numel)
    (hred : (⟨2, ![a, b]⟩ : Shape).Reduces [1] ⟨1, ![a]⟩)
    (hcol : (⟨1, ![a]⟩ : Shape).BroadcastsInDim ⟨2, ![a, 1]⟩ ![0])
    (hε : (⟨0, ![]⟩ : Shape).BroadcastsInDim ⟨2, ![a, 1]⟩ ![])
    (hall : (⟨2, ![a, 1]⟩ : Shape).BroadcastsInDim ⟨2, ![a, b]⟩ ![0, 1])
    (p : Fin a) (q : Fin b) :
    broadcastInDim ⟨2, ![a, b]⟩ ![0, 1] hall
        (Host.rsqrt (maximumf
          (broadcastInDim ⟨2, ![a, 1]⟩ ![0] hcol
            (Host.reduceAdd (F := Ideal) (mulf x x) (constant ⟨0, ![]⟩ .f32 0x00000000#32) h' hu))
          (broadcastInDim ⟨2, ![a, 1]⟩ ![] hε (constant (F := Ideal) ⟨0, ![]⟩ .f32 ε)))) (ix2 p q)
      = invLen ε (fun k => x (ix2 p k)) := by
  rw [Cert.HostOps.bcast_col_cols]
  show Ideal.rsqrt (max
      (broadcastInDim ⟨2, ![a, 1]⟩ ![0] hcol
        (Host.reduceAdd (F := Ideal) (mulf x x) (constant ⟨0, ![]⟩ .f32 0x00000000#32) h' hu) (ix2 p (0 : Fin 1)))
      (broadcastInDim ⟨2, ![a, 1]⟩ ![] hε (constant (F := Ideal) ⟨0, ![]⟩ .f32 ε) (ix2 p (0 : Fin 1)))) = _
  rw [Cert.HostOps.bcast_vec_col, Cert.HostOps.bcast_scalar, Cert.HostOps.hostReduceAdd_rows _ _ h' hred hu]
  show Ideal.rsqrt (max (Ideal.ofBits .f32 0x00000000#32 + ∑ k : Fin b, x (ix2 p k) * x (ix2 p k)) (Ideal.ofBits .f32 ε)) = _
  rw [Ideal.ofBits_zero_f32, zero_add]
  rfl

/-- One entry of a row pushed along its sign by a normalised row of noise: `r + sign r · (n_q · invLen n) · s`,
    `s` the step word. -/
def nudged (ε s : BitVec 32) (r : EReal) (n : Fin b → EReal) (q : Fin b) : EReal :=
  r + Ideal.sign r * (n q * invLen ε n) * Ideal.ofBits .f32 s

/-- One entry of a row scaled to unit length: `x_q · invLen x`. -/
def unitEntry (ε : BitVec 32) (x : Fin b → EReal) (q : Fin b) : EReal :=
  x q * invLen ε x

/-- The [a, b] array whose entry `(p, q)` is entry `(p, q)` of `raw` pushed by row `p` of `noise`. -/
def nudgedRows (ε s : BitVec 32) (raw noise : (⟨2, ![a, b]⟩ : Shape).Idx → EReal) : (⟨2, ![a, b]⟩ : Shape).Idx → EReal :=
  fun i => nudged ε s (raw i) (fun k => noise (ix2 (i 0) k)) (i 1)

/-- The [a, b] array whose rows are the rows of `x` scaled to unit length. -/
def unitRows (ε : BitVec 32) (x : (⟨2, ![a, b]⟩ : Shape).Idx → EReal) : (⟨2, ![a, b]⟩ : Shape).Idx → EReal :=
  fun i => unitEntry ε (fun k => x (ix2 (i 0) k)) (i 1)

theorem nudgedRows_ix2 (ε s : BitVec 32) (raw noise : (⟨2, ![a, b]⟩ : Shape).Idx → EReal) (p : Fin a) (q : Fin b) :
    nudgedRows ε s raw noise (ix2 p q) = nudged ε s (raw (ix2 p q)) (fun k => noise (ix2 p k)) q := rfl

theorem unitRows_ix2 (ε : BitVec 32) (x : (⟨2, ![a, b]⟩ : Shape).Idx → EReal) (p : Fin a) (q : Fin b) :
    unitRows ε x (ix2 p q) = unitEntry ε (fun k => x (ix2 p k)) q := rfl

/-- The host's spelling of the pushed array — `raw + sign raw · (noise · (inverse row lengths of noise)) · step`, every
    factor a whole [a, b] array — is `nudgedRows`. -/
theorem host_nudgedRows_eq (raw noise : FVec Ideal ⟨2, ![a, b]⟩ .f32) (ε s : BitVec 32)
    (h' : (⟨2, ![a, b]⟩ : Shape).ReducesTo [1] ⟨1, ![a]⟩) (hu : 0 < (⟨0, ![]⟩ : Shape).numel)
    (hred : (⟨2, ![a, b]⟩ : Shape).Reduces [1] ⟨1, ![a]⟩)
    (hcol : (⟨1, ![a]⟩ : Shape).BroadcastsInDim ⟨2, ![a, 1]⟩ ![0])
    (hε : (⟨0, ![]⟩ : Shape).BroadcastsInDim ⟨2, ![a, 1]⟩ ![])
    (hall : (⟨2, ![a, 1]⟩ : Shape).BroadcastsInDim ⟨2, ![a, b]⟩ ![0, 1])
    (hs : (⟨0, ![]⟩ : Shape).BroadcastsInDim ⟨2, ![a, b]⟩ ![]) :
    addf raw (mulf (mulf (Host.sign raw) (mulf noise
        (broadcastInDim ⟨2, ![a, b]⟩ ![0, 1] hall
          (Host.rsqrt (maximumf
            (broadcastInDim ⟨2, ![a, 1]⟩ ![0] hcol
              (Host.reduceAdd (F := Ideal) (mulf noise noise) (constant ⟨0, ![]⟩ .f32 0x00000000#32) h' hu))
            (broadcastInDim ⟨2, ![a, 1]⟩ ![] hε (constant (F := Ideal) ⟨0, ![]⟩ .f32 ε)))))))
        (broadcastInDim ⟨2, ![a, b]⟩ ![] hs (constant (F := Ideal) ⟨0, ![]⟩ .f32 s)))
      = nudgedRows ε s raw noise := by
  funext i
  obtain ⟨p, q, rfl⟩ : ∃ (p : Fin a) (q : Fin b), i = ix2 p q := ⟨i 0, i 1, eq_ix2 i⟩
  rw [nudgedRows_ix2]
  show raw (ix2 p q) + Ideal.sign (raw (ix2 p q)) * (noise (ix2 p q)
      * broadcastInDim ⟨2, ![a, b]⟩ ![0, 1] hall
          (Host.rsqrt (maximumf
            (broadcastInDim ⟨2, ![a, 1]⟩ ![0] hcol
              (Host.reduceAdd (F := Ideal) (mulf noise noise) (constant ⟨0, ![]⟩ .f32 0x00000000#32) h' hu))
            (broadcastInDim ⟨2, ![a, 1]⟩ ![] hε (constant (F := Ideal) ⟨0, ![]⟩ .f32 ε)))) (ix2 p q))
      * broadcastInDim ⟨2, ![a, b]⟩ ![] hs (constant (F := Ideal) ⟨0, ![]⟩ .f32 s) (ix2 p q) = _
  rw [host_invLen_apply noise ε h' hu hred hcol hε hall p q, Cert.HostOps.bcast_scalar]
  rfl

/-- The host's spelling of the rows at unit length — `x · (inverse row lengths of x)` — is `unitRows`. -/
theorem host_unitRows_eq (x : FVec Ideal ⟨2, ![a, b]⟩ .f32) (ε : BitVec 32)
    (h' : (⟨2, ![a, b]⟩ : Shape).ReducesTo [1] ⟨1, ![a]⟩) (hu : 0 < (⟨0, ![]⟩ : Shape).numel)
    (hred : (⟨2, ![a, b]⟩ : Shape).Reduces [1] ⟨1, ![a]⟩)
    (hcol : (⟨1, ![a]⟩ : Shape).BroadcastsInDim ⟨2, ![a, 1]⟩ ![0])
    (hε : (⟨0, ![]⟩ : Shape).BroadcastsInDim ⟨2, ![a, 1]⟩ ![])
    (hall : (⟨2, ![a, 1]⟩ : Shape).BroadcastsInDim ⟨2, ![a, b]⟩ ![0, 1]) :
    mulf x (broadcastInDim ⟨2, ![a, b]⟩ ![0, 1] hall
        (Host.rsqrt (maximumf
          (broadcastInDim ⟨2, ![a, 1]⟩ ![0] hcol
            (Host.reduceAdd (F := Ideal) (mulf x x) (constant ⟨0, ![]⟩ .f32 0x00000000#32) h' hu))
          (broadcastInDim ⟨2, ![a, 1]⟩ ![] hε (constant (F := Ideal) ⟨0, ![]⟩ .f32 ε)))))
      = unitRows ε x := by
  funext i
  obtain ⟨p, q, rfl⟩ : ∃ (p : Fin a) (q : Fin b), i = ix2 p q := ⟨i 0, i 1, eq_ix2 i⟩
  rw [unitRows_ix2]
  show x (ix2 p q) * broadcastInDim ⟨2, ![a, b]⟩ ![0, 1] hall
        (Host.rsqrt (maximumf
          (broadcastInDim ⟨2, ![a, 1]⟩ ![0] hcol
            (Host.reduceAdd (F := Ideal) (mulf x x) (constant ⟨0, ![]⟩ .f32 0x00000000#32) h' hu))
          (broadcastInDim ⟨2, ![a, 1]⟩ ![] hε (constant (F := Ideal) ⟨0, ![]⟩ .f32 ε)))) (ix2 p q) = _
  rw [host_invLen_apply x ε h' hu hred hcol hε hall p q]
  rfl

/-- Rows `off … off + a' - 1` of an [a, b] array, all lanes: entry `(p, q)` of the slice is entry `(off + p, q)`. -/
theorem rows_slice_apply {α : Type} {a' : ℕ} (off : ℕ) (x : (⟨2, ![a, b]⟩ : Shape).Idx → α)
    (h : (⟨2, ![a, b]⟩ : Shape).Slices ![off, 0] ⟨2, ![a', b]⟩) (p : Fin a') (q : Fin b) (hp : off + p.val < a) :
    extractStridedSlice ⟨2, ![a', b]⟩ ![off, 0] x h (ix2 p q) = x (ix2 ⟨off + p.val, hp⟩ q) :=
  extractStridedSlice_apply ![off, 0] x h (ix2 p q) (ix2 ⟨off + p.val, hp⟩ q) (fun d => match d with
    | ⟨0, _⟩ => rfl
    | ⟨1, _⟩ => by show q.val = 0 + q.val; omega)

/-- Scaling rows to unit length commutes with keeping a range of rows: a row's length only involves that row. -/
theorem unitRows_rows_slice {a' : ℕ} (ε : BitVec 32) (off : ℕ) (x : (⟨2, ![a, b]⟩ : Shape).Idx → EReal)
    (h : (⟨2, ![a, b]⟩ : Shape).Slices ![off, 0] ⟨2, ![a', b]⟩) (hle : off + a' ≤ a) :
    unitRows ε (extractStridedSlice ⟨2, ![a', b]⟩ ![off, 0] x h)
      = extractStridedSlice ⟨2, ![a', b]⟩ ![off, 0] (unitRows ε x) h := by
  funext j
  obtain ⟨p, q, rfl⟩ : ∃ (p : Fin a') (q : Fin b), j = ix2 p q := ⟨j 0, j 1, eq_ix2 j⟩
  have hp : off + p.val < a := by have := p.isLt; omega
  rw [unitRows_ix2, rows_slice_apply off (unitRows ε x) h p q hp, unitRows_ix2]
  have hrow : (fun k => extractStridedSlice ⟨2, ![a', b]⟩ ![off, 0] x h (ix2 p k)) = fun k => x (ix2 ⟨off + p.val, hp⟩ k) :=
    funext fun k => rows_slice_apply off x h p k hp
  rw [hrow]

end Cert.RowNorm

end
-- ==== Proof.Payload.lean ====
/-
  What the two kernel bodies compute, read at one entry of a block, over the extended reals.

  The layer-update body takes a block of propagated embeddings `x0`, the matching block of noise `x1` and the block
  of the running sum `x2` (each 5000 rows of 64 lanes). Its first result has at `(p, q)`
      x0 p q + sign (x0 p q) · (x1 p q · invLen (row p of x1)) · 0.2
  — the entry pushed along its own sign by the noise row scaled to unit length — where the body's sign, spelt
  "if |x| > 0 then (if x < 0 then -1 else 1) else x", is the sign of an extended real (-1, 0 or 1 by the order). Its second
  result adds that to the running sum's entry. The normalising body scales its block by a constant word (1/4 in one
  call, 1 in the other) and then scales every row to unit length. Each row's sum of squares is a sum over the 64 lanes
  of that row of the block: nothing of another row enters.
-/
import proofs.«174214_j26199300505700_1_alg».proof.Proof.Gen.KernelIdeal.Skeleton
import proofs.«174214_j26199300505700_1_alg».proof.Proof.LibRowNorm

noncomputable section

namespace Cert.KernelIdeal.Body

open Cert.KernelIdeal Cert.KernelIdeal.Gen Idealize.ShloMosaic Idealize.ShloMosaic.ValueIdx Cert.RowNorm

/-- The guard under the square root, the word both programs write for 1e-24. -/
abbrev guardW : BitVec 32 := 0x179ABE15#32
/-- The step of the perturbation, the word both programs write for 0.2. -/
abbrev stepW : BitVec 32 := 0x3E4CCCCD#32

-- the printed lane reduction carries a proof of `0#32 = 0#32` where the lemma's hypothesis is spelt through the neutral element
set_option backward.isDefEq.respectTransparency.types false in
/-- The layer-update body's first result at `(p, q)`. -/
theorem pushed_apply (x0 x1 : Vec Ideal S5000x64 .f32) (p : Fin 5000) (q : Fin 64) :
    k0_pay1 (F := Ideal) x0 x1 (ix2 p q) = nudged guardW stepW (x0 (ix2 p q)) (fun k => x1 (ix2 p k)) q := by
  unfold k0_pay1
  simp only [shapeCast_self]
  show x0 (ix2 p q) + (Scalar.select (FloatOps.cmpf .ogt (FloatOps.absf (x0 (ix2 p q))) (Scalar.ofBits (F := Ideal) .f32 0x00000000#32))
        (Scalar.select (FloatOps.cmpf .olt (x0 (ix2 p q)) (Scalar.ofBits (F := Ideal) .f32 0x00000000#32)) (Scalar.ofBits (F := Ideal) .f32 0xBF800000#32)
          (Scalar.ofBits (F := Ideal) .f32 0x3F800000#32)) (x0 (ix2 p q)))
      * (x1 (ix2 p q) * broadcastTo S5000x64 (rsqrt (F := Ideal) (maximumf (shapeCast S5000x1 (multiReduction (F := Ideal) .add [1] S5000 (mulf x1 x1)
          0x00000000#32 reduces_S5000x64_S5000 (.inl rfl) rfl) shapeCasts_S5000_S5000x1) (broadcast S5000x1 (Scalar.ofBits (F := Ideal) .f32 0x179ABE15#32))))
          broadcasts_S5000x1_S5000x64 (ix2 p q)) * Ideal.ofBits .f32 0x3E4CCCCD#32 = _
  rw [Ideal.jnp_sign_eq_sign_f32, vector_invLen_apply]
  rfl

/-- The layer-update body's second result at `(p, q)`: the running sum's entry plus the first result's. -/
theorem summed_apply (x0 x1 x2 : Vec Ideal S5000x64 .f32) (p : Fin 5000) (q : Fin 64) :
    k0_pay2 (F := Ideal) x0 x1 x2 (ix2 p q)
      = x2 (ix2 p q) + nudged guardW stepW (x0 (ix2 p q)) (fun k => x1 (ix2 p k)) q := by
  unfold k0_pay2
  simp only [shapeCast_self]
  show x2 (ix2 p q) + k0_pay1 (F := Ideal) x0 x1 (ix2 p q) = _
  rw [pushed_apply]

/-- The three layer-update calls run one body. -/
theorem pay1_second (x0 x1 : Vec Ideal S5000x64 .f32) : k1_pay1 (F := Ideal) x0 x1 = k0_pay1 x0 x1 := rfl
theorem pay1_third (x0 x1 : Vec Ideal S5000x64 .f32) : k2_pay1 (F := Ideal) x0 x1 = k0_pay1 x0 x1 := rfl
theorem pay2_second (x0 x1 x2 : Vec Ideal S5000x64 .f32) : k1_pay2 (F := Ideal) x0 x1 x2 = k0_pay2 x0 x1 x2 := rfl
theorem pay2_third (x0 x1 x2 : Vec Ideal S5000x64 .f32) : k2_pay2 (F := Ideal) x0 x1 x2 = k0_pay2 x0 x1 x2 := rfl

-- the printed lane reduction carries a proof of `0#32 = 0#32` where the lemma's hypothesis is spelt through the neutral element
set_option backward.isDefEq.respectTransparency.types false in
/-- The normalising body after the scale 1/4, at `(p, q)`: the scaled row's entry over the scaled row's length. -/
theorem quarter_unit_apply (x0 : Vec Ideal S10000x64 .f32) (p : Fin 10000) (q : Fin 64) :
    k3_pay1 (F := Ideal) x0 (ix2 p q)
      = unitEntry guardW (fun k => x0 (ix2 p k) * Ideal.ofBits .f32 0x3E800000#32) q := by
  unfold k3_pay1
  simp only [shapeCast_self]
  show (x0 (ix2 p q) * Ideal.ofBits .f32 0x3E800000#32)
      * broadcastTo S10000x64 (rsqrt (F := Ideal) (maximumf (shapeCast S10000x1 (multiReduction (F := Ideal) .add [1] S10000
          (mulf (mulf x0 (broadcast S10000x64 (Scalar.ofBits (F := Ideal) .f32 0x3E800000#32))) (mulf x0 (broadcast S10000x64 (Scalar.ofBits (F := Ideal) .f32 0x3E800000#32))))
          0x00000000#32 reduces_S10000x64_S10000 (.inl rfl) rfl) shapeCasts_S10000_S10000x1) (broadcast S10000x1 (Scalar.ofBits (F := Ideal) .f32 0x179ABE15#32))))
          broadcasts_S10000x1_S10000x64 (ix2 p q) = _
  rw [vector_invLen_apply]
  rfl

-- the printed lane reduction carries a proof of `0#32 = 0#32` where the lemma's hypothesis is spelt through the neutral element
set_option backward.isDefEq.respectTransparency.types false in
/-- The normalising body after the scale 1, at `(p, q)`. -/
theorem one_unit_apply (x0 : Vec Ideal S10000x64 .f32) (p : Fin 10000) (q : Fin 64) :
    k4_pay1 (F := Ideal) x0 (ix2 p q)
      = unitEntry guardW (fun k => x0 (ix2 p k) * Ideal.ofBits .f32 0x3F800000#32) q := by
  unfold k4_pay1
  simp only [shapeCast_self]
  show (x0 (ix2 p q) * Ideal.ofBits .f32 0x3F800000#32)
      * broadcastTo S10000x64 (rsqrt (F := Ideal) (maximumf (shapeCast S10000x1 (multiReduction (F := Ideal) .add [1] S10000
          (mulf (mulf x0 (broadcast S10000x64 (Scalar.ofBits (F := Ideal) .f32 0x3F800000#32))) (mulf x0 (broadcast S10000x64 (Scalar.ofBits (F := Ideal) .f32 0x3F800000#32))))
          0x00000000#32 reduces_S10000x64_S10000 (.inl rfl) rfl) shapeCasts_S10000_S10000x1) (broadcast S10000x1 (Scalar.ofBits (F := Ideal) .f32 0x179ABE15#32))))
          broadcasts_S10000x1_S10000x64 (ix2 p q) = _
  rw [vector_invLen_apply]
  rfl

end Cert.KernelIdeal.Body

end
-- ==== Proof.Layer0.lean ====
/-
  The first layer-update call: its two result arrays as whole-array functions of the arrays it is entered with.

  The call runs the body at 50 points; point `t` reads rows 5000·t … 5000·t + 4999 (all 64 lanes) of the propagated
  embeddings, of the layer's noise and of the running sum, and writes the same rows of its two results. A row's
  sum of squares only involves that row, so the block the body writes at point `t` is block `t` of ONE function of
  the whole arrays: entry `(i, q)` of the first result is the embedding's entry pushed along its sign by row `i` of
  the noise scaled to unit length, and entry `(i, q)` of the second is the running sum's entry plus that. The 50
  blocks cover all 250000 rows (row `i` lies in block `i / 5000`), so after the call the two arrays ARE those
  functions, whatever contents `V` the call was entered with.
-/
import proofs.«174214_j26199300505700_1_alg».proof.Proof.GenP.KernelIdeal.Frame
import proofs.«174214_j26199300505700_1_alg».proof.Proof.Payload
import Idealize.ShloMosaic.Lib.Pipeline.Value

set_option maxRecDepth 16384

noncomputable section

namespace Cert.KernelIdeal.Layer0

open Cert.KernelIdeal Cert.KernelIdeal.Gen Cert.KernelIdeal.Body Cert.RowNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The entering arrays the call reads, as plain [250000, 64] arrays. -/
abbrev rawArr (c : Dev nD) : S250000x64.Idx → EReal := V c main_v13
abbrev noiseArr (c : Dev nD) : S250000x64.Idx → EReal := V c main_v15
abbrev sumArr (c : Dev nD) : S250000x64.Idx → EReal := V c main_v0

/-- The first result as one function of the entering arrays. -/
def pushedArr (c : Dev nD) : S250000x64.Idx → EReal :=
  nudgedRows (a := 250000) (b := 64) guardW stepW (rawArr V c) (noiseArr V c)

/-- The second result as one function of the entering arrays. -/
def summedArr (c : Dev nD) : S250000x64.Idx → EReal :=
  fun i => sumArr V c i + pushedArr V c i

/-- Every window's block at point `t` is block `t` along the rows and block 0 along the lanes (decided over the 50 points). -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The array row of row `p` of point `t`'s blocks. -/
def rowAt (t : Fin cfg0.N) (p : Fin 5000) : Fin 250000 :=
  ⟨t.val * 5000 + p.val, by have ht : t.val < 50 := t.isLt; have hp := p.isLt; omega⟩

/-- Entry `(p, k)` of window 0's block at point `t` sits at row 5000·t + p, lane k of its array. -/
theorem emb0 (t : Fin cfg0.N) (p : Fin 5000) (k : Fin 64) :
    (((cfg0.win 0).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- Entry `(p, k)` of window 1's block at point `t` sits at row 5000·t + p, lane k of its array. -/
theorem emb1 (t : Fin cfg0.N) (p : Fin 5000) (k : Fin 64) :
    (((cfg0.win 1).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

/-- Entry `(p, k)` of window 2's block at point `t` sits at row 5000·t + p, lane k of its array. -/
theorem emb2 (t : Fin cfg0.N) (p : Fin 5000) (k : Fin 64) :
    (((cfg0.win 2).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win0_2.index t (0 : Fin 2) * 5000 + 1 * p.val = t.val * 5000 + p.val; omega
  | ⟨1, _⟩ => show win0_2.index t (1 : Fin 2) * 64 + 1 * k.val = k.val; omega

/-- Entry `(p, k)` of window 3's block at point `t` sits at row 5000·t + p, lane k of its array. -/
theorem emb3 (t : Fin cfg0.N) (p : Fin 5000) (k : Fin 64) :
    (((cfg0.win 3).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win0_3.index t (0 : Fin 2) * 5000 + 1 * p.val = t.val * 5000 + p.val; omega
  | ⟨1, _⟩ => show win0_3.index t (1 : Fin 2) * 64 + 1 * k.val = k.val; omega

/-- Entry `(p, k)` of window 4's block at point `t` sits at row 5000·t + p, lane k of its array. -/
theorem emb4 (t : Fin cfg0.N) (p : Fin 5000) (k : Fin 64) :
    (((cfg0.win 4).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win0_4.index t (0 : Fin 2) * 5000 + 1 * p.val = t.val * 5000 + p.val; omega
  | ⟨1, _⟩ => show win0_4.index t (1 : Fin 2) * 64 + 1 * k.val = k.val; omega

/-- The body's first payload on the point's blocks, at block entry `(p, q)`, is `pushedArr` at row `rowAt t p`, lane `q`. -/
theorem pushed_block (c : Dev nD) (t : Fin cfg0.N) (p : Fin 5000) (q : Fin 64) :
    k0_pay1 (F := Ideal) (iblk0 V c 0 t) (iblk0 V c 1 t) (ix2 p q) = pushedArr V c (ix2 (rowAt t p) q) := by
  refine (pushed_apply (iblk0 V c 0 t) (iblk0 V c 1 t) p q).trans ?_
  show nudged guardW stepW (rawArr V c (((cfg0.win 0).blk t).view.emb (ix2 p q)))
      (fun k => noiseArr V c (((cfg0.win 1).blk t).view.emb (ix2 p k))) q
    = nudged guardW stepW (rawArr V c (ix2 (rowAt t p) q)) (fun k => noiseArr V c (ix2 (rowAt t p) k)) q
  rw [emb0 t p q]
  congr 1
  funext k
  rw [emb1 t p k]

/-- What point `t` writes back to the first result is block `t` of `pushedArr`. -/
theorem flushed_pushed (c : Dev nD) (t : Fin cfg0.N) :
    (dat0 V c).flushed 3 t = ((cfg0.win 3).blk t).view.read (Elt Ideal) (pushedArr V c) := by
  show (cfg0.win 3).cut (grid0.coords t) ((dat0 V c).after 3 t) = _
  rw [after0_3]
  unfold out0_3
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = pushedArr V c (((cfg0.win 3).blk t).view.emb (ix2 p q))
  rw [emb3 t p q]
  exact pushed_block V c t p q

/-- What point `t` writes back to the second result is block `t` of `summedArr`. -/
theorem flushed_summed (c : Dev nD) (t : Fin cfg0.N) :
    (dat0 V c).flushed 4 t = ((cfg0.win 4).blk t).view.read (Elt Ideal) (summedArr V c) := by
  show (cfg0.win 4).cut (grid0.coords t) ((dat0 V c).after 4 t) = _
  rw [after0_4]
  unfold out0_4
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  show k0_pay2 (F := Ideal) (iblk0 V c 0 t) (iblk0 V c 1 t) (iblk0 V c 2 t) (ix2 p q)
    = sumArr V c (((cfg0.win 4).blk t).view.emb (ix2 p q)) + pushedArr V c (((cfg0.win 4).blk t).view.emb (ix2 p q))
  rw [emb4 t p q]
  refine (summed_apply (iblk0 V c 0 t) (iblk0 V c 1 t) (iblk0 V c 2 t) p q).trans ?_
  rw [← pushed_apply (iblk0 V c 0 t) (iblk0 V c 1 t) p q, pushed_block V c t p q]
  show sumArr V c (((cfg0.win 2).blk t).view.emb (ix2 p q)) + _ = _
  rw [emb2 t p q]

/-- An index of the array is in point `t`'s block of window 3 iff each coordinate is in the block's range on its axis. -/
theorem mem_block3 (t : Fin cfg0.N) (i : S250000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16_0).slice (win0_3.rect t)).set ↔ _
  rw [View.set_slice_whole, Rect.mem_set_unit]
  exact Iff.rfl

/-- Row `i` lies in window 3's block of point `i / 5000`. -/
theorem covered3 (i : S250000x64.Idx) :
    ∃ t : Fin cfg0.N, (cfg0.win 3).flush t = true ∧ i ∈ ((cfg0.win 3).blk t).view.set := by
  have hi0 : (i 0).val < 250000 := (i 0).isLt
  have hi1 : (i 1).val < 64 := (i 1).isLt
  have ht : (i 0).val / 5000 < 50 := by omega
  refine ⟨⟨(i 0).val / 5000, ht⟩, flush0_3 _, ?_⟩
  rw [mem_block3]
  obtain ⟨e00, e01, e10, e11, e20, e21, e30, e31, e40, e41⟩ := blocks_at ⟨(i 0).val / 5000, ht⟩
  have hrow : win0_3.index ⟨(i 0).val / 5000, ht⟩ (0 : Fin 2) = (i 0).val / 5000 := e30
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 64 ≤ (i 1).val ∧ (i 1).val < win0_3.index ⟨(i 0).val / 5000, ht⟩ (1 : Fin 2) * 64 + 64; omega

/-- An index of the array is in point `t`'s block of window 4 iff each coordinate is in the block's range on its axis. -/
theorem mem_block4 (t : Fin cfg0.N) (i : S250000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v16_1).slice (win0_4.rect t)).set ↔ _
  rw [View.set_slice_whole, Rect.mem_set_unit]
  exact Iff.rfl

/-- Row `i` lies in window 4's block of point `i / 5000`. -/
theorem covered4 (i : S250000x64.Idx) :
    ∃ t : Fin cfg0.N, (cfg0.win 4).flush t = true ∧ i ∈ ((cfg0.win 4).blk t).view.set := by
  have hi0 : (i 0).val < 250000 := (i 0).isLt
  have hi1 : (i 1).val < 64 := (i 1).isLt
  have ht : (i 0).val / 5000 < 50 := by omega
  refine ⟨⟨(i 0).val / 5000, ht⟩, flush0_4 _, ?_⟩
  rw [mem_block4]
  obtain ⟨e00, e01, e10, e11, e20, e21, e30, e31, e40, e41⟩ := blocks_at ⟨(i 0).val / 5000, ht⟩
  have hrow : win0_4.index ⟨(i 0).val / 5000, ht⟩ (0 : Fin 2) = (i 0).val / 5000 := e40
  intro a
  match a with
  | ⟨0, _⟩ => show win0_4.index ⟨(i 0).val / 5000, ht⟩ (0 : Fin 2) * 5000 ≤ (i 0).val ∧ (i 0).val < win0_4.index ⟨(i 0).val / 5000, ht⟩ (0 : Fin 2) * 5000 + 5000; omega
  | ⟨1, _⟩ => show win0_4.index ⟨(i 0).val / 5000, ht⟩ (1 : Fin 2) * 64 ≤ (i 1).val ∧ (i 1).val < win0_4.index ⟨(i 0).val / 5000, ht⟩ (1 : Fin 2) * 64 + 64; omega

/-- After the call the first result array is `pushedArr` of the entering arrays. -/
theorem final_pushed (c : Dev nD) : (dat0 V c).arrAt 3 cfg0.N = pushedArr V c :=
  (dat0 V c).arrAt_eq_of_cover 3 (pushedArr V c) (fun t _ => flushed_pushed V c t) covered3

/-- After the call the second result array is `summedArr` of the entering arrays. -/
theorem final_summed (c : Dev nD) : (dat0 V c).arrAt 4 cfg0.N = summedArr V c :=
  (dat0 V c).arrAt_eq_of_cover 4 (summedArr V c) (fun t _ => flushed_summed V c t) covered4

end Cert.KernelIdeal.Layer0

end
-- ==== Proof.Layer1.lean ====
/-
  The second layer-update call: its two result arrays as whole-array functions of the arrays it is entered with.

  The call runs the body at 50 points; point `t` reads rows 5000·t … 5000·t + 4999 (all 64 lanes) of the propagated
  embeddings, of the layer's noise and of the running sum, and writes the same rows of its two results. A row's
  sum of squares only involves that row, so the block the body writes at point `t` is block `t` of ONE function of
  the whole arrays: entry `(i, q)` of the first result is the embedding's entry pushed along its sign by row `i` of
  the noise scaled to unit length, and entry `(i, q)` of the second is the running sum's entry plus that. The 50
  blocks cover all 250000 rows (row `i` lies in block `i / 5000`), so after the call the two arrays ARE those
  functions, whatever contents `V` the call was entered with.
-/
import proofs.«174214_j26199300505700_1_alg».proof.Proof.GenP.KernelIdeal.Frame
import proofs.«174214_j26199300505700_1_alg».proof.Proof.Payload
import Idealize.ShloMosaic.Lib.Pipeline.Value

set_option maxRecDepth 16384

noncomputable section

namespace Cert.KernelIdeal.Layer1

open Cert.KernelIdeal Cert.KernelIdeal.Gen Cert.KernelIdeal.Body Cert.RowNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The entering arrays the call reads, as plain [250000, 64] arrays. -/
abbrev rawArr (c : Dev nD) : S250000x64.Idx → EReal := V c main_v29
abbrev noiseArr (c : Dev nD) : S250000x64.Idx → EReal := V c main_v31
abbrev sumArr (c : Dev nD) : S250000x64.Idx → EReal := V c main_v16_1

/-- The first result as one function of the entering arrays. -/
def pushedArr (c : Dev nD) : S250000x64.Idx → EReal :=
  nudgedRows (a := 250000) (b := 64) guardW stepW (rawArr V c) (noiseArr V c)

/-- The second result as one function of the entering arrays. -/
def summedArr (c : Dev nD) : S250000x64.Idx → EReal :=
  fun i => sumArr V c i + pushedArr V c i

/-- Every window's block at point `t` is block `t` along the rows and block 0 along the lanes (decided over the 50 points). -/
theorem blocks_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The array row of row `p` of point `t`'s blocks. -/
def rowAt (t : Fin cfg1.N) (p : Fin 5000) : Fin 250000 :=
  ⟨t.val * 5000 + p.val, by have ht : t.val < 50 := t.isLt; have hp := p.isLt; omega⟩

/-- Entry `(p, k)` of window 0's block at point `t` sits at row 5000·t + p, lane k of its array. -/
theorem emb0 (t : Fin cfg1.N) (p : Fin 5000) (k : Fin 64) :
    (((cfg1.win 0).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- Entry `(p, k)` of window 1's block at point `t` sits at row 5000·t + p, lane k of its array. -/
theorem emb1 (t : Fin cfg1.N) (p : Fin 5000) (k : Fin 64) :
    (((cfg1.win 1).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- Entry `(p, k)` of window 2's block at point `t` sits at row 5000·t + p, lane k of its array. -/
theorem emb2 (t : Fin cfg1.N) (p : Fin 5000) (k : Fin 64) :
    (((cfg1.win 2).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win1_2.index t (0 : Fin 2) * 5000 + 1 * p.val = t.val * 5000 + p.val; omega
  | ⟨1, _⟩ => show win1_2.index t (1 : Fin 2) * 64 + 1 * k.val = k.val; omega

/-- Entry `(p, k)` of window 3's block at point `t` sits at row 5000·t + p, lane k of its array. -/
theorem emb3 (t : Fin cfg1.N) (p : Fin 5000) (k : Fin 64) :
    (((cfg1.win 3).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win1_3.index t (0 : Fin 2) * 5000 + 1 * p.val = t.val * 5000 + p.val; omega
  | ⟨1, _⟩ => show win1_3.index t (1 : Fin 2) * 64 + 1 * k.val = k.val; omega

/-- Entry `(p, k)` of window 4's block at point `t` sits at row 5000·t + p, lane k of its array. -/
theorem emb4 (t : Fin cfg1.N) (p : Fin 5000) (k : Fin 64) :
    (((cfg1.win 4).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win1_4.index t (0 : Fin 2) * 5000 + 1 * p.val = t.val * 5000 + p.val; omega
  | ⟨1, _⟩ => show win1_4.index t (1 : Fin 2) * 64 + 1 * k.val = k.val; omega

/-- The body's first payload on the point's blocks, at block entry `(p, q)`, is `pushedArr` at row `rowAt t p`, lane `q`. -/
theorem pushed_block (c : Dev nD) (t : Fin cfg1.N) (p : Fin 5000) (q : Fin 64) :
    k0_pay1 (F := Ideal) (iblk1 V c 0 t) (iblk1 V c 1 t) (ix2 p q) = pushedArr V c (ix2 (rowAt t p) q) := by
  refine (pushed_apply (iblk1 V c 0 t) (iblk1 V c 1 t) p q).trans ?_
  show nudged guardW stepW (rawArr V c (((cfg1.win 0).blk t).view.emb (ix2 p q)))
      (fun k => noiseArr V c (((cfg1.win 1).blk t).view.emb (ix2 p k))) q
    = nudged guardW stepW (rawArr V c (ix2 (rowAt t p) q)) (fun k => noiseArr V c (ix2 (rowAt t p) k)) q
  rw [emb0 t p q]
  congr 1
  funext k
  rw [emb1 t p k]

/-- What point `t` writes back to the first result is block `t` of `pushedArr`. -/
theorem flushed_pushed (c : Dev nD) (t : Fin cfg1.N) :
    (dat1 V c).flushed 3 t = ((cfg1.win 3).blk t).view.read (Elt Ideal) (pushedArr V c) := by
  show (cfg1.win 3).cut (grid1.coords t) ((dat1 V c).after 3 t) = _
  rw [after1_3]
  unfold out1_3
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q)
    = pushedArr V c (((cfg1.win 3).blk t).view.emb (ix2 p q))
  rw [emb3 t p q]
  exact (congrFun (pay1_second (iblk1 V c 0 t) (iblk1 V c 1 t)) (ix2 p q)).trans (pushed_block V c t p q)

/-- What point `t` writes back to the second result is block `t` of `summedArr`. -/
theorem flushed_summed (c : Dev nD) (t : Fin cfg1.N) :
    (dat1 V c).flushed 4 t = ((cfg1.win 4).blk t).view.read (Elt Ideal) (summedArr V c) := by
  show (cfg1.win 4).cut (grid1.coords t) ((dat1 V c).after 4 t) = _
  rw [after1_4]
  unfold out1_4
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  show k1_pay2 (F := Ideal) (iblk1 V c 0 t) (iblk1 V c 1 t) (iblk1 V c 2 t) (ix2 p q)
    = sumArr V c (((cfg1.win 4).blk t).view.emb (ix2 p q)) + pushedArr V c (((cfg1.win 4).blk t).view.emb (ix2 p q))
  rw [emb4 t p q]
  refine (congrFun (pay2_second (iblk1 V c 0 t) (iblk1 V c 1 t) (iblk1 V c 2 t)) (ix2 p q)).trans ?_
  refine (summed_apply (iblk1 V c 0 t) (iblk1 V c 1 t) (iblk1 V c 2 t) p q).trans ?_
  rw [← pushed_apply (iblk1 V c 0 t) (iblk1 V c 1 t) p q, pushed_block V c t p q]
  show sumArr V c (((cfg1.win 2).blk t).view.emb (ix2 p q)) + _ = _
  rw [emb2 t p q]

/-- An index of the array is in point `t`'s block of window 3 iff each coordinate is in the block's range on its axis. -/
theorem mem_block3 (t : Fin cfg1.N) (i : S250000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v32_0).slice (win1_3.rect t)).set ↔ _
  rw [View.set_slice_whole, Rect.mem_set_unit]
  exact Iff.rfl

/-- Row `i` lies in window 3's block of point `i / 5000`. -/
theorem covered3 (i : S250000x64.Idx) :
    ∃ t : Fin cfg1.N, (cfg1.win 3).flush t = true ∧ i ∈ ((cfg1.win 3).blk t).view.set := by
  have hi0 : (i 0).val < 250000 := (i 0).isLt
  have hi1 : (i 1).val < 64 := (i 1).isLt
  have ht : (i 0).val / 5000 < 50 := by omega
  refine ⟨⟨(i 0).val / 5000, ht⟩, flush1_3 _, ?_⟩
  rw [mem_block3]
  obtain ⟨e00, e01, e10, e11, e20, e21, e30, e31, e40, e41⟩ := blocks_at ⟨(i 0).val / 5000, ht⟩
  have hrow : win1_3.index ⟨(i 0).val / 5000, ht⟩ (0 : Fin 2) = (i 0).val / 5000 := e30
  intro a
  match a with
  | ⟨0, _⟩ => show win1_3.index ⟨(i 0).val / 5000, ht⟩ (0 : Fin 2) * 5000 ≤ (i 0).val ∧ (i 0).val < win1_3.index ⟨(i 0).val / 5000, ht⟩ (0 : Fin 2) * 5000 + 5000; omega
  | ⟨1, _⟩ => show win1_3.index ⟨(i 0).val / 5000, ht⟩ (1 : Fin 2) * 64 ≤ (i 1).val ∧ (i 1).val < win1_3.index ⟨(i 0).val / 5000, ht⟩ (1 : Fin 2) * 64 + 64; omega

/-- An index of the array is in point `t`'s block of window 4 iff each coordinate is in the block's range on its axis. -/
theorem mem_block4 (t : Fin cfg1.N) (i : S250000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v32_1).slice (win1_4.rect t)).set ↔ _
  rw [View.set_slice_whole, Rect.mem_set_unit]
  exact Iff.rfl

/-- Row `i` lies in window 4's block of point `i / 5000`. -/
theorem covered4 (i : S250000x64.Idx) :
    ∃ t : Fin cfg1.N, (cfg1.win 4).flush t = true ∧ i ∈ ((cfg1.win 4).blk t).view.set := by
  have hi0 : (i 0).val < 250000 := (i 0).isLt
  have hi1 : (i 1).val < 64 := (i 1).isLt
  have ht : (i 0).val / 5000 < 50 := by omega
  refine ⟨⟨(i 0).val / 5000, ht⟩, flush1_4 _, ?_⟩
  rw [mem_block4]
  obtain ⟨e00, e01, e10, e11, e20, e21, e30, e31, e40, e41⟩ := blocks_at ⟨(i 0).val / 5000, ht⟩
  have hrow : win1_4.index ⟨(i 0).val / 5000, ht⟩ (0 : Fin 2) = (i 0).val / 5000 := e40
  intro a
  match a with
  | ⟨0, _⟩ => show win1_4.index ⟨(i 0).val / 5000, ht⟩ (0 : Fin 2) * 5000 ≤ (i 0).val ∧ (i 0).val < win1_4.index ⟨(i 0).val / 5000, ht⟩ (0 : Fin 2) * 5000 + 5000; omega
  | ⟨1, _⟩ => show win1_4.index ⟨(i 0).val / 5000, ht⟩ (1 : Fin 2) * 64 ≤ (i 1).val ∧ (i 1).val < win1_4.index ⟨(i 0).val / 5000, ht⟩ (1 : Fin 2) * 64 + 64; omega

/-- After the call the first result array is `pushedArr` of the entering arrays. -/
theorem final_pushed (c : Dev nD) : (dat1 V c).arrAt 3 cfg1.N = pushedArr V c :=
  (dat1 V c).arrAt_eq_of_cover 3 (pushedArr V c) (fun t _ => flushed_pushed V c t) covered3

/-- After the call the second result array is `summedArr` of the entering arrays. -/
theorem final_summed (c : Dev nD) : (dat1 V c).arrAt 4 cfg1.N = summedArr V c :=
  (dat1 V c).arrAt_eq_of_cover 4 (summedArr V c) (fun t _ => flushed_summed V c t) covered4

end Cert.KernelIdeal.Layer1

end
-- ==== Proof.Layer2.lean ====
/-
  The third layer-update call: its two result arrays as whole-array functions of the arrays it is entered with.

  The call runs the body at 50 points; point `t` reads rows 5000·t … 5000·t + 4999 (all 64 lanes) of the propagated
  embeddings, of the layer's noise and of the running sum, and writes the same rows of its two results. A row's
  sum of squares only involves that row, so the block the body writes at point `t` is block `t` of ONE function of
  the whole arrays: entry `(i, q)` of the first result is the embedding's entry pushed along its sign by row `i` of
  the noise scaled to unit length, and entry `(i, q)` of the second is the running sum's entry plus that. The 50
  blocks cover all 250000 rows (row `i` lies in block `i / 5000`), so after the call the two arrays ARE those
  functions, whatever contents `V` the call was entered with.
-/
import proofs.«174214_j26199300505700_1_alg».proof.Proof.GenP.KernelIdeal.Frame
import proofs.«174214_j26199300505700_1_alg».proof.Proof.Payload
import Idealize.ShloMosaic.Lib.Pipeline.Value

set_option maxRecDepth 16384

noncomputable section

namespace Cert.KernelIdeal.Layer2

open Cert.KernelIdeal Cert.KernelIdeal.Gen Cert.KernelIdeal.Body Cert.RowNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The entering arrays the call reads, as plain [250000, 64] arrays. -/
abbrev rawArr (c : Dev nD) : S250000x64.Idx → EReal := V c main_v45
abbrev noiseArr (c : Dev nD) : S250000x64.Idx → EReal := V c main_v47
abbrev sumArr (c : Dev nD) : S250000x64.Idx → EReal := V c main_v32_1

/-- The first result as one function of the entering arrays. -/
def pushedArr (c : Dev nD) : S250000x64.Idx → EReal :=
  nudgedRows (a := 250000) (b := 64) guardW stepW (rawArr V c) (noiseArr V c)

/-- The second result as one function of the entering arrays. -/
def summedArr (c : Dev nD) : S250000x64.Idx → EReal :=
  fun i => sumArr V c i + pushedArr V c i

/-- Every window's block at point `t` is block `t` along the rows and block 0 along the lanes (decided over the 50 points). -/
theorem blocks_at : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The array row of row `p` of point `t`'s blocks. -/
def rowAt (t : Fin cfg2.N) (p : Fin 5000) : Fin 250000 :=
  ⟨t.val * 5000 + p.val, by have ht : t.val < 50 := t.isLt; have hp := p.isLt; omega⟩

/-- Entry `(p, k)` of window 0's block at point `t` sits at row 5000·t + p, lane k of its array. -/
theorem emb0 (t : Fin cfg2.N) (p : Fin 5000) (k : Fin 64) :
    (((cfg2.win 0).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

/-- Entry `(p, k)` of window 1's block at point `t` sits at row 5000·t + p, lane k of its array. -/
theorem emb1 (t : Fin cfg2.N) (p : Fin 5000) (k : Fin 64) :
    (((cfg2.win 1).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win2_1.index t (0 : Fin 2) * 5000 + 1 * p.val = t.val * 5000 + p.val; omega
  | ⟨1, _⟩ => show win2_1.index t (1 : Fin 2) * 64 + 1 * k.val = k.val; omega

/-- Entry `(p, k)` of window 2's block at point `t` sits at row 5000·t + p, lane k of its array. -/
theorem emb2 (t : Fin cfg2.N) (p : Fin 5000) (k : Fin 64) :
    (((cfg2.win 2).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win2_2.index t (0 : Fin 2) * 5000 + 1 * p.val = t.val * 5000 + p.val; omega
  | ⟨1, _⟩ => show win2_2.index t (1 : Fin 2) * 64 + 1 * k.val = k.val; omega

/-- Entry `(p, k)` of window 3's block at point `t` sits at row 5000·t + p, lane k of its array. -/
theorem emb3 (t : Fin cfg2.N) (p : Fin 5000) (k : Fin 64) :
    (((cfg2.win 3).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win2_3.index t (0 : Fin 2) * 5000 + 1 * p.val = t.val * 5000 + p.val; omega
  | ⟨1, _⟩ => show win2_3.index t (1 : Fin 2) * 64 + 1 * k.val = k.val; omega

/-- Entry `(p, k)` of window 4's block at point `t` sits at row 5000·t + p, lane k of its array. -/
theorem emb4 (t : Fin cfg2.N) (p : Fin 5000) (k : Fin 64) :
    (((cfg2.win 4).blk t).view.emb (ix2 p k) : S250000x64.Idx) = ix2 (rowAt t p) k := by
  obtain ⟨e00, e01, e10, e11, e20, e21, e30, e31, e40, e41⟩ := blocks_at t
  funext a; apply Fin.ext
  match a with
  | ⟨0, _⟩ => show win2_4.index t (0 : Fin 2) * 5000 + 1 * p.val = t.val * 5000 + p.val; omega
  | ⟨1, _⟩ => show win2_4.index t (1 : Fin 2) * 64 + 1 * k.val = k.val; omega

/-- The body's first payload on the point's blocks, at block entry `(p, q)`, is `pushedArr` at row `rowAt t p`, lane `q`. -/
theorem pushed_block (c : Dev nD) (t : Fin cfg2.N) (p : Fin 5000) (q : Fin 64) :
    k0_pay1 (F := Ideal) (iblk2 V c 0 t) (iblk2 V c 1 t) (ix2 p q) = pushedArr V c (ix2 (rowAt t p) q) := by
  refine (pushed_apply (iblk2 V c 0 t) (iblk2 V c 1 t) p q).trans ?_
  show nudged guardW stepW (rawArr V c (((cfg2.win 0).blk t).view.emb (ix2 p q)))
      (fun k => noiseArr V c (((cfg2.win 1).blk t).view.emb (ix2 p k))) q
    = nudged guardW stepW (rawArr V c (ix2 (rowAt t p) q)) (fun k => noiseArr V c (ix2 (rowAt t p) k)) q
  rw [emb0 t p q]
  congr 1
  funext k
  rw [emb1 t p k]

/-- What point `t` writes back to the first result is block `t` of `pushedArr`. -/
theorem flushed_pushed (c : Dev nD) (t : Fin cfg2.N) :
    (dat2 V c).flushed 3 t = ((cfg2.win 3).blk t).view.read (Elt Ideal) (pushedArr V c) := by
  show (cfg2.win 3).cut (grid2.coords t) ((dat2 V c).after 3 t) = _
  rw [after2_3]
  unfold out2_3
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = pushedArr V c (((cfg2.win 3).blk t).view.emb (ix2 p q))
  rw [emb3 t p q]
  exact (congrFun (pay1_third (iblk2 V c 0 t) (iblk2 V c 1 t)) (ix2 p q)).trans (pushed_block V c t p q)

/-- What point `t` writes back to the second result is block `t` of `summedArr`. -/
theorem flushed_summed (c : Dev nD) (t : Fin cfg2.N) :
    (dat2 V c).flushed 4 t = ((cfg2.win 4).blk t).view.read (Elt Ideal) (summedArr V c) := by
  show (cfg2.win 4).cut (grid2.coords t) ((dat2 V c).after 4 t) = _
  rw [after2_4]
  unfold out2_4
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  show k2_pay2 (F := Ideal) (iblk2 V c 0 t) (iblk2 V c 1 t) (iblk2 V c 2 t) (ix2 p q)
    = sumArr V c (((cfg2.win 4).blk t).view.emb (ix2 p q)) + pushedArr V c (((cfg2.win 4).blk t).view.emb (ix2 p q))
  rw [emb4 t p q]
  refine (congrFun (pay2_third (iblk2 V c 0 t) (iblk2 V c 1 t) (iblk2 V c 2 t)) (ix2 p q)).trans ?_
  refine (summed_apply (iblk2 V c 0 t) (iblk2 V c 1 t) (iblk2 V c 2 t) p q).trans ?_
  rw [← pushed_apply (iblk2 V c 0 t) (iblk2 V c 1 t) p q, pushed_block V c t p q]
  show sumArr V c (((cfg2.win 2).blk t).view.emb (ix2 p q)) + _ = _
  rw [emb2 t p q]

/-- An index of the array is in point `t`'s block of window 3 iff each coordinate is in the block's range on its axis. -/
theorem mem_block3 (t : Fin cfg2.N) (i : S250000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v48_0).slice (win2_3.rect t)).set ↔ _
  rw [View.set_slice_whole, Rect.mem_set_unit]
  exact Iff.rfl

/-- Row `i` lies in window 3's block of point `i / 5000`. -/
theorem covered3 (i : S250000x64.Idx) :
    ∃ t : Fin cfg2.N, (cfg2.win 3).flush t = true ∧ i ∈ ((cfg2.win 3).blk t).view.set := by
  have hi0 : (i 0).val < 250000 := (i 0).isLt
  have hi1 : (i 1).val < 64 := (i 1).isLt
  have ht : (i 0).val / 5000 < 50 := by omega
  refine ⟨⟨(i 0).val / 5000, ht⟩, flush2_3 _, ?_⟩
  rw [mem_block3]
  obtain ⟨e00, e01, e10, e11, e20, e21, e30, e31, e40, e41⟩ := blocks_at ⟨(i 0).val / 5000, ht⟩
  have hrow : win2_3.index ⟨(i 0).val / 5000, ht⟩ (0 : Fin 2) = (i 0).val / 5000 := e30
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; omega
  | ⟨1, _⟩ => show win2_3.index ⟨(i 0).val / 5000, ht⟩ (1 : Fin 2) * 64 ≤ (i 1).val ∧ (i 1).val < win2_3.index ⟨(i 0).val / 5000, ht⟩ (1 : Fin 2) * 64 + 64; omega

/-- An index of the array is in point `t`'s block of window 4 iff each coordinate is in the block's range on its axis. -/
theorem mem_block4 (t : Fin cfg2.N) (i : S250000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v48_1).slice (win2_4.rect t)).set ↔ _
  rw [View.set_slice_whole, Rect.mem_set_unit]
  exact Iff.rfl

/-- Row `i` lies in window 4's block of point `i / 5000`. -/
theorem covered4 (i : S250000x64.Idx) :
    ∃ t : Fin cfg2.N, (cfg2.win 4).flush t = true ∧ i ∈ ((cfg2.win 4).blk t).view.set := by
  have hi0 : (i 0).val < 250000 := (i 0).isLt
  have hi1 : (i 1).val < 64 := (i 1).isLt
  have ht : (i 0).val / 5000 < 50 := by omega
  refine ⟨⟨(i 0).val / 5000, ht⟩, flush2_4 _, ?_⟩
  rw [mem_block4]
  obtain ⟨e00, e01, e10, e11, e20, e21, e30, e31, e40, e41⟩ := blocks_at ⟨(i 0).val / 5000, ht⟩
  have hrow : win2_4.index ⟨(i 0).val / 5000, ht⟩ (0 : Fin 2) = (i 0).val / 5000 := e40
  intro a
  match a with
  | ⟨0, _⟩ => show win2_4.index ⟨(i 0).val / 5000, ht⟩ (0 : Fin 2) * 5000 ≤ (i 0).val ∧ (i 0).val < win2_4.index ⟨(i 0).val / 5000, ht⟩ (0 : Fin 2) * 5000 + 5000; omega
  | ⟨1, _⟩ => show win2_4.index ⟨(i 0).val / 5000, ht⟩ (1 : Fin 2) * 64 ≤ (i 1).val ∧ (i 1).val < win2_4.index ⟨(i 0).val / 5000, ht⟩ (1 : Fin 2) * 64 + 64; omega

/-- After the call the first result array is `pushedArr` of the entering arrays. -/
theorem final_pushed (c : Dev nD) : (dat2 V c).arrAt 3 cfg2.N = pushedArr V c :=
  (dat2 V c).arrAt_eq_of_cover 3 (pushedArr V c) (fun t _ => flushed_pushed V c t) covered3

/-- After the call the second result array is `summedArr` of the entering arrays. -/
theorem final_summed (c : Dev nD) : (dat2 V c).arrAt 4 cfg2.N = summedArr V c :=
  (dat2 V c).arrAt_eq_of_cover 4 (summedArr V c) (fun t _ => flushed_summed V c t) covered4

end Cert.KernelIdeal.Layer2

end
-- ==== Proof.Norm3.lean ====
/-
  The normalising call that scales by 1/4: its result array as a whole-array function of the array it is entered with.

  The call runs the body at 25 points; point `t` reads rows 10000·t … 10000·t + 9999 (all 64 lanes) of its operand
  and writes the same rows of its result: each entry times the scale word, over the Euclidean length of its own
  scaled row (the sum of squares guarded from below). A row's length only involves that row, so the block written at
  point `t` is block `t` of ONE function of the whole array, and the 25 blocks cover all 250000 rows (row `i` lies in
  block `i / 10000`): after the call the result array IS that function, whatever contents `V` the call was entered with.
-/
import proofs.«174214_j26199300505700_1_alg».proof.Proof.GenP.KernelIdeal.Frame
import proofs.«174214_j26199300505700_1_alg».proof.Proof.Payload
import Idealize.ShloMosaic.Lib.Pipeline.Value

set_option maxRecDepth 16384

noncomputable section

namespace Cert.KernelIdeal.Norm3

open Cert.KernelIdeal Cert.KernelIdeal.Gen Cert.KernelIdeal.Body Cert.RowNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The entering array the call reads, as a plain [250000, 64] array. -/
abbrev inArr (c : Dev nD) : S250000x64.Idx → EReal := V c main_v48_1

/-- The result as one function of the entering array: the scaled rows at unit length. -/
def unitArr (c : Dev nD) : S250000x64.Idx → EReal :=
  unitRows (a := 250000) (b := 64) guardW (fun i => inArr V c i * Ideal.ofBits .f32 0x3E800000#32)

/-- Both windows' blocks at point `t` are block `t` along the rows and block 0 along the lanes (decided over the 25 points). -/
theorem blocks_at : ∀ t : Fin cfg3.N,
    win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- The array row of row `p` of point `t`'s blocks. -/
def rowAt (t : Fin cfg3.N) (p : Fin 10000) : Fin 250000 :=
  ⟨t.val * 10000 + p.val, by have ht : t.val < 25 := t.isLt; have hp := p.isLt; omega⟩

/-- Entry `(p, k)` of window 0's block at point `t` sits at row 10000·t + p, lane k of its array. -/
theorem emb0 (t : Fin cfg3.N) (p : Fin 10000) (k : Fin 64) :
    (((cfg3.win 0).blk t).view.emb (ix2 p k) : S250000x64.Idx) = ix2 (rowAt t p) k := by
  obtain ⟨e00, e01, e10, e11⟩ := blocks_at t
  funext a; apply Fin.ext
  match a with
  | ⟨0, _⟩ => show win3_0.index t (0 : Fin 2) * 10000 + 1 * p.val = t.val * 10000 + p.val; omega
  | ⟨1, _⟩ => show win3_0.index t (1 : Fin 2) * 64 + 1 * k.val = k.val; omega

/-- Entry `(p, k)` of window 1's block at point `t` sits at row 10000·t + p, lane k of its array. -/
theorem emb1 (t : Fin cfg3.N) (p : Fin 10000) (k : Fin 64) :
    (((cfg3.win 1).blk t).view.emb (ix2 p k) : S250000x64.Idx) = ix2 (rowAt t p) k := by
  obtain ⟨e00, e01, e10, e11⟩ := blocks_at t
  funext a; apply Fin.ext
  match a with
  | ⟨0, _⟩ => show win3_1.index t (0 : Fin 2) * 10000 + 1 * p.val = t.val * 10000 + p.val; omega
  | ⟨1, _⟩ => show win3_1.index t (1 : Fin 2) * 64 + 1 * k.val = k.val; omega

/-- What point `t` writes back is block `t` of `unitArr`. -/
theorem flushed_unit (c : Dev nD) (t : Fin cfg3.N) :
    (dat3 V c).flushed 1 t = ((cfg3.win 1).blk t).view.read (Elt Ideal) (unitArr V c) := by
  show (cfg3.win 1).cut (grid3.coords t) ((dat3 V c).after 1 t) = _
  rw [after3_1]
  unfold out3_1
  rw [View.canon_unit_zero origin]
  simp only [View.ld_unit_zero (S := S10000x64) origin]
  funext j
  obtain ⟨p, q, rfl⟩ : ∃ (p : Fin 10000) (q : Fin 64), j = ix2 p q := ⟨j 0, j 1, eq_ix2 j⟩
  show k3_pay1 (F := Ideal) (iblk3 V c 0 t) (ix2 p q) = unitArr V c (((cfg3.win 1).blk t).view.emb (ix2 p q))
  rw [emb1 t p q]
  refine (quarter_unit_apply (iblk3 V c 0 t) p q).trans ?_
  show unitEntry guardW (fun k => inArr V c (((cfg3.win 0).blk t).view.emb (ix2 p k)) * Ideal.ofBits .f32 0x3E800000#32) q
    = unitEntry guardW (fun k => inArr V c (ix2 (rowAt t p) k) * Ideal.ofBits .f32 0x3E800000#32) q
  congr 1
  funext k
  rw [emb0 t p k]

/-- An index of the array is in point `t`'s block of window 1 iff each coordinate is in the block's range on its axis. -/
theorem mem_block1 (t : Fin cfg3.N) (i : S250000x64.Idx) :
    i ∈ ((cfg3.win 1).blk t).view.set ↔ ∀ a : Fin 2, win3_1.index t a * S10000x64.size a ≤ (i a).val ∧ (i a).val < win3_1.index t a * S10000x64.size a + S10000x64.size a := by
  show i ∈ ((View.whole main_v49).slice (win3_1.rect t)).set ↔ _
  rw [View.set_slice_whole, Rect.mem_set_unit]
  exact Iff.rfl

/-- Row `i` lies in window 1's block of point `i / 10000`. -/
theorem covered1 (i : S250000x64.Idx) :
    ∃ t : Fin cfg3.N, (cfg3.win 1).flush t = true ∧ i ∈ ((cfg3.win 1).blk t).view.set := by
  have hi0 : (i 0).val < 250000 := (i 0).isLt
  have hi1 : (i 1).val < 64 := (i 1).isLt
  have ht : (i 0).val / 10000 < 25 := by omega
  refine ⟨⟨(i 0).val / 10000, ht⟩, flush3_1 _, ?_⟩
  rw [mem_block1]
  obtain ⟨e00, e01, e10, e11⟩ := blocks_at ⟨(i 0).val / 10000, ht⟩
  have hrow : win3_1.index ⟨(i 0).val / 10000, ht⟩ (0 : Fin 2) = (i 0).val / 10000 := e10
  intro a
  match a with
  | ⟨0, _⟩ => show win3_1.index ⟨(i 0).val / 10000, ht⟩ (0 : Fin 2) * 10000 ≤ (i 0).val ∧ (i 0).val < win3_1.index ⟨(i 0).val / 10000, ht⟩ (0 : Fin 2) * 10000 + 10000; omega
  | ⟨1, _⟩ => show win3_1.index ⟨(i 0).val / 10000, ht⟩ (1 : Fin 2) * 64 ≤ (i 1).val ∧ (i 1).val < win3_1.index ⟨(i 0).val / 10000, ht⟩ (1 : Fin 2) * 64 + 64; omega

/-- After the call the result array is `unitArr` of the entering array. -/
theorem final_unit (c : Dev nD) : (dat3 V c).arrAt 1 cfg3.N = unitArr V c :=
  (dat3 V c).arrAt_eq_of_cover 1 (unitArr V c) (fun t _ => flushed_unit V c t) covered1

end Cert.KernelIdeal.Norm3

end
-- ==== Proof.Norm4.lean ====
/-
  The normalising call that scales by 1: its result array as a whole-array function of the array it is entered with.

  The call runs the body at 25 points; point `t` reads rows 10000·t … 10000·t + 9999 (all 64 lanes) of its operand
  and writes the same rows of its result: each entry times the scale word, over the Euclidean length of its own
  scaled row (the sum of squares guarded from below). A row's length only involves that row, so the block written at
  point `t` is block `t` of ONE function of the whole array, and the 25 blocks cover all 250000 rows (row `i` lies in
  block `i / 10000`): after the call the result array IS that function, whatever contents `V` the call was entered with.
-/
import proofs.«174214_j26199300505700_1_alg».proof.Proof.GenP.KernelIdeal.Frame
import proofs.«174214_j26199300505700_1_alg».proof.Proof.Payload
import Idealize.ShloMosaic.Lib.Pipeline.Value

set_option maxRecDepth 16384

noncomputable section

namespace Cert.KernelIdeal.Norm4

open Cert.KernelIdeal Cert.KernelIdeal.Gen Cert.KernelIdeal.Body Cert.RowNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The entering array the call reads, as a plain [250000, 64] array. -/
abbrev inArr (c : Dev nD) : S250000x64.Idx → EReal := V c main_v16_0

/-- The result as one function of the entering array: the scaled rows at unit length. -/
def unitArr (c : Dev nD) : S250000x64.Idx → EReal :=
  unitRows (a := 250000) (b := 64) guardW (fun i => inArr V c i * Ideal.ofBits .f32 0x3F800000#32)

/-- Both windows' blocks at point `t` are block `t` along the rows and block 0 along the lanes (decided over the 25 points). -/
theorem blocks_at : ∀ t : Fin cfg4.N,
    win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- The array row of row `p` of point `t`'s blocks. -/
def rowAt (t : Fin cfg4.N) (p : Fin 10000) : Fin 250000 :=
  ⟨t.val * 10000 + p.val, by have ht : t.val < 25 := t.isLt; have hp := p.isLt; omega⟩

/-- Entry `(p, k)` of window 0's block at point `t` sits at row 10000·t + p, lane k of its array. -/
theorem emb0 (t : Fin cfg4.N) (p : Fin 10000) (k : Fin 64) :
    (((cfg4.win 0).blk t).view.emb (ix2 p k) : S250000x64.Idx) = ix2 (rowAt t p) k := by
  obtain ⟨e00, e01, e10, e11⟩ := blocks_at t
  funext a; apply Fin.ext
  match a with
  | ⟨0, _⟩ => show win4_0.index t (0 : Fin 2) * 10000 + 1 * p.val = t.val * 10000 + p.val; omega
  | ⟨1, _⟩ => show win4_0.index t (1 : Fin 2) * 64 + 1 * k.val = k.val; omega

/-- Entry `(p, k)` of window 1's block at point `t` sits at row 10000·t + p, lane k of its array. -/
theorem emb1 (t : Fin cfg4.N) (p : Fin 10000) (k : Fin 64) :
    (((cfg4.win 1).blk t).view.emb (ix2 p k) : S250000x64.Idx) = ix2 (rowAt t p) k := by
  obtain ⟨e00, e01, e10, e11⟩ := blocks_at t
  funext a; apply Fin.ext
  match a with
  | ⟨0, _⟩ => show win4_1.index t (0 : Fin 2) * 10000 + 1 * p.val = t.val * 10000 + p.val; omega
  | ⟨1, _⟩ => show win4_1.index t (1 : Fin 2) * 64 + 1 * k.val = k.val; omega

/-- What point `t` writes back is block `t` of `unitArr`. -/
theorem flushed_unit (c : Dev nD) (t : Fin cfg4.N) :
    (dat4 V c).flushed 1 t = ((cfg4.win 1).blk t).view.read (Elt Ideal) (unitArr V c) := by
  show (cfg4.win 1).cut (grid4.coords t) ((dat4 V c).after 1 t) = _
  rw [after4_1]
  unfold out4_1
  rw [View.canon_unit_zero origin]
  simp only [View.ld_unit_zero (S := S10000x64) origin]
  funext j
  obtain ⟨p, q, rfl⟩ : ∃ (p : Fin 10000) (q : Fin 64), j = ix2 p q := ⟨j 0, j 1, eq_ix2 j⟩
  show k4_pay1 (F := Ideal) (iblk4 V c 0 t) (ix2 p q) = unitArr V c (((cfg4.win 1).blk t).view.emb (ix2 p q))
  rw [emb1 t p q]
  refine (one_unit_apply (iblk4 V c 0 t) p q).trans ?_
  show unitEntry guardW (fun k => inArr V c (((cfg4.win 0).blk t).view.emb (ix2 p k)) * Ideal.ofBits .f32 0x3F800000#32) q
    = unitEntry guardW (fun k => inArr V c (ix2 (rowAt t p) k) * Ideal.ofBits .f32 0x3F800000#32) q
  congr 1
  funext k
  rw [emb0 t p k]

/-- An index of the array is in point `t`'s block of window 1 iff each coordinate is in the block's range on its axis. -/
theorem mem_block1 (t : Fin cfg4.N) (i : S250000x64.Idx) :
    i ∈ ((cfg4.win 1).blk t).view.set ↔ ∀ a : Fin 2, win4_1.index t a * S10000x64.size a ≤ (i a).val ∧ (i a).val < win4_1.index t a * S10000x64.size a + S10000x64.size a := by
  show i ∈ ((View.whole main_v50).slice (win4_1.rect t)).set ↔ _
  rw [View.set_slice_whole, Rect.mem_set_unit]
  exact Iff.rfl

/-- Row `i` lies in window 1's block of point `i / 10000`. -/
theorem covered1 (i : S250000x64.Idx) :
    ∃ t : Fin cfg4.N, (cfg4.win 1).flush t = true ∧ i ∈ ((cfg4.win 1).blk t).view.set := by
  have hi0 : (i 0).val < 250000 := (i 0).isLt
  have hi1 : (i 1).val < 64 := (i 1).isLt
  have ht : (i 0).val / 10000 < 25 := by omega
  refine ⟨⟨(i 0).val / 10000, ht⟩, flush4_1 _, ?_⟩
  rw [mem_block1]
  obtain ⟨e00, e01, e10, e11⟩ := blocks_at ⟨(i 0).val / 10000, ht⟩
  have hrow : win4_1.index ⟨(i 0).val / 10000, ht⟩ (0 : Fin 2) = (i 0).val / 10000 := e10
  intro a
  match a with
  | ⟨0, _⟩ => show win4_1.index ⟨(i 0).val / 10000, ht⟩ (0 : Fin 2) * 10000 ≤ (i 0).val ∧ (i 0).val < win4_1.index ⟨(i 0).val / 10000, ht⟩ (0 : Fin 2) * 10000 + 10000; omega
  | ⟨1, _⟩ => show win4_1.index ⟨(i 0).val / 10000, ht⟩ (1 : Fin 2) * 64 ≤ (i 1).val ∧ (i 1).val < win4_1.index ⟨(i 0).val / 10000, ht⟩ (1 : Fin 2) * 64 + 64; omega

/-- After the call the result array is `unitArr` of the entering array. -/
theorem final_unit (c : Dev nD) : (dat4 V c).arrAt 1 cfg4.N = unitArr V c :=
  (dat4 V c).arrAt_eq_of_cover 1 (unitArr V c) (fun t _ => flushed_unit V c t) covered1

end Cert.KernelIdeal.Norm4

end
-- ==== Proof.Words.lean ====
/-
  The float words of the closing arithmetic, as the extended reals they denote, and the two laws they give.

  The kernel scales the running sum by the word of 0.25 where the reference divides it by the word of 4.0; both words
  are exact binary fractions (1/4 and 4), and on the extended reals dividing by a nonzero real is multiplying by its
  reciprocal — at the infinities too — so the two are one function. The second normalising call multiplies by the
  word of 1.0, which is the real 1, and `x · 1 = x` for every extended real.
-/
import Idealize.ShloMosaic.PureOps.Ideal

noncomputable section

namespace Cert.Words

open Idealize.ShloMosaic

/-- The word of `0.25` denotes the real `1/4`. -/
theorem quarter : Ideal.ofBits .f32 0x3E800000#32 = ((1 / 4 : ℝ) : EReal) := by
  simp [Ideal.ofBits, Ideal.ieee, -EReal.coe_mul]; norm_num

/-- The word of `4.0` denotes the real `4`. -/
theorem four : Ideal.ofBits .f32 0x40800000#32 = ((4 : ℝ) : EReal) := by
  simp [Ideal.ofBits, Ideal.ieee, -EReal.coe_mul]; norm_num

/-- The word of `1.0` denotes `1`. -/
theorem one : Ideal.ofBits .f32 0x3F800000#32 = 1 := by
  simp [Ideal.ofBits, Ideal.ieee, -EReal.coe_mul]; norm_num

/-- Dividing by four is multiplying by a quarter, on every extended real. -/
theorem div_four (x : EReal) :
    Ideal.div x (Ideal.ofBits .f32 0x40800000#32) = x * Ideal.ofBits .f32 0x3E800000#32 := by
  rw [four, quarter, Ideal.div_coe (by norm_num : (4 : ℝ) ≠ 0)]

/-- Multiplying by the word of one changes nothing. -/
theorem mul_one_word (x : EReal) : x * Ideal.ofBits .f32 0x3F800000#32 = x := by
  rw [one, mul_one]

end Cert.Words

end
-- ==== Proof.RefStages.lean ====
/-
  The reference's stages, as the row formulas.

  The reference computes, three times over, a propagated array (a gather of the previous layer's embeddings at the
  sources, weighted, scatter-added at the destinations: the stages `val_main_v13`, `v42`, `v71`), pushes each of its
  entries along its sign by the layer's noise row scaled to unit length (`v28`, `v57`, `v86`), and sums the layers
  (`v29`, `v58`, `v87`). Read entry by entry, each pushed array is `nudgedRows` of the propagated array and the noise
  slice. At the end it divides the sum by four, keeps the first 100000 or the last 150000 rows, and scales every kept row
  to unit length — and does the same to the first layer's pushed array. Scaling a row only involves that row, so
  keeping rows commutes with it; and dividing by four is multiplying by a quarter. So the four results are row ranges
  of `unitRows` of ONE [250000, 64] array each.
-/
import proofs.«174214_j26199300505700_1_alg».proof.Proof.Gen.ReferenceIdeal.Read
import proofs.«174214_j26199300505700_1_alg».proof.Proof.LibRowNorm
import proofs.«174214_j26199300505700_1_alg».proof.Proof.Words

set_option maxRecDepth 16384

noncomputable section

namespace Cert.ReferenceIdeal.Stages

open Cert.ReferenceIdeal Cert.ReferenceIdeal.Gen Cert.ReferenceIdeal.Read Cert.RowNorm
open Idealize.ShloMosaic Idealize.ShloMosaic.ValueIdx

/-- The guard under the square root (the word of 1e-24) and the step of the perturbation (the word of 0.2). -/
abbrev guardW : BitVec 32 := 0x179ABE15#32
abbrev stepW : BitVec 32 := 0x3E4CCCCD#32

variable (x0 : (⟨S100000x64, .f32⟩ : BufTy).Contents (Elt Ideal)) (x1 : (⟨S150000x64, .f32⟩ : BufTy).Contents (Elt Ideal))
  (x2 : (⟨S2000000, .f32⟩ : BufTy).Contents (Elt Ideal)) (x3 : (⟨S3x250000x64, .f32⟩ : BufTy).Contents (Elt Ideal))
  (x4 x5 : (⟨S2000000, .i32⟩ : BufTy).Contents (Elt Ideal))

/-- The first layer's pushed array. -/
theorem pushed_one : val_main_v28 (F := Ideal) x0 x1 x2 x3 x4 x5
    = nudgedRows (a := 250000) (b := 64) guardW stepW (val_main_v13 (F := Ideal) x0 x1 x2 x4 x5) (val_main_v16 (F := Ideal) x3) :=
  host_nudgedRows_eq (a := 250000) (b := 64) (val_main_v13 (F := Ideal) x0 x1 x2 x4 x5) (val_main_v16 (F := Ideal) x3) guardW stepW
    reducesTo_S250000x64_S250000_d1 h_S_ (by decide) bcast_S250000_S250000x1_0 bcast_S_S250000x1 bcast_S250000x1_S250000x64_0_1 bcast_S_S250000x64

/-- The second layer's pushed array. -/
theorem pushed_two : val_main_v57 (F := Ideal) x0 x1 x2 x3 x4 x5
    = nudgedRows (a := 250000) (b := 64) guardW stepW (val_main_v42 (F := Ideal) x0 x1 x2 x3 x4 x5) (val_main_v45 (F := Ideal) x3) :=
  host_nudgedRows_eq (a := 250000) (b := 64) (val_main_v42 (F := Ideal) x0 x1 x2 x3 x4 x5) (val_main_v45 (F := Ideal) x3) guardW stepW
    reducesTo_S250000x64_S250000_d1 h_S_ (by decide) bcast_S250000_S250000x1_0 bcast_S_S250000x1 bcast_S250000x1_S250000x64_0_1 bcast_S_S250000x64

/-- The third layer's pushed array. -/
theorem pushed_three : val_main_v86 (F := Ideal) x0 x1 x2 x3 x4 x5
    = nudgedRows (a := 250000) (b := 64) guardW stepW (val_main_v71 (F := Ideal) x0 x1 x2 x3 x4 x5) (val_main_v74 (F := Ideal) x3) :=
  host_nudgedRows_eq (a := 250000) (b := 64) (val_main_v71 (F := Ideal) x0 x1 x2 x3 x4 x5) (val_main_v74 (F := Ideal) x3) guardW stepW
    reducesTo_S250000x64_S250000_d1 h_S_ (by decide) bcast_S250000_S250000x1_0 bcast_S_S250000x1 bcast_S250000x1_S250000x64_0_1 bcast_S_S250000x64

/-- The mean of the four layers: the sum divided by four is the sum times a quarter, entry by entry. -/
theorem mean_eq : val_main_v89 (F := Ideal) x0 x1 x2 x3 x4 x5
    = fun j => val_main_v87 (F := Ideal) x0 x1 x2 x3 x4 x5 j * Ideal.ofBits .f32 0x3E800000#32 := by
  funext j
  show Ideal.div (val_main_v87 (F := Ideal) x0 x1 x2 x3 x4 x5 j) (Ideal.ofBits .f32 0x40800000#32) = _
  exact Cert.Words.div_four _

/-- First result: the first 100000 rows of the mean, at unit length. -/
theorem result_users : val_main_v101 (F := Ideal) x0 x1 x2 x3 x4 x5
    = extractStridedSlice S100000x64 ![0, 0]
        (unitRows (a := 250000) (b := 64) guardW (fun j => val_main_v87 (F := Ideal) x0 x1 x2 x3 x4 x5 j * Ideal.ofBits .f32 0x3E800000#32))
        slices_S250000x64_S100000x64_0_0 := by
  rw [← mean_eq, ← unitRows_rows_slice (a := 250000) (b := 64) guardW 0 _ slices_S250000x64_S100000x64_0_0 (by omega)]
  exact host_unitRows_eq (a := 100000) (b := 64) (val_main_v90 (F := Ideal) x0 x1 x2 x3 x4 x5) guardW
    reducesTo_S100000x64_S100000_d1 h_S_ (by decide) bcast_S100000_S100000x1_0 bcast_S_S100000x1 bcast_S100000x1_S100000x64_0_1

/-- Second result: the last 150000 rows of the mean, at unit length. -/
theorem result_items : val_main_v109 (F := Ideal) x0 x1 x2 x3 x4 x5
    = extractStridedSlice S150000x64 ![100000, 0]
        (unitRows (a := 250000) (b := 64) guardW (fun j => val_main_v87 (F := Ideal) x0 x1 x2 x3 x4 x5 j * Ideal.ofBits .f32 0x3E800000#32))
        slices_S250000x64_S150000x64_100000_0 := by
  rw [← mean_eq, ← unitRows_rows_slice (a := 250000) (b := 64) guardW 100000 _ slices_S250000x64_S150000x64_100000_0 (by omega)]
  exact host_unitRows_eq (a := 150000) (b := 64) (val_main_v91 (F := Ideal) x0 x1 x2 x3 x4 x5) guardW
    reducesTo_S150000x64_S150000_d1 h_S_ (by decide) bcast_S150000_S150000x1_0 bcast_S_S150000x1 bcast_S150000x1_S150000x64_0_1

/-- Third result: the first 100000 rows of the first layer's pushed array, at unit length. -/
theorem result_users_first : val_main_v117 (F := Ideal) x0 x1 x2 x3 x4 x5
    = extractStridedSlice S100000x64 ![0, 0]
        (unitRows (a := 250000) (b := 64) guardW (val_main_v28 (F := Ideal) x0 x1 x2 x3 x4 x5)) slices_S250000x64_S100000x64_0_0 := by
  rw [← unitRows_rows_slice (a := 250000) (b := 64) guardW 0 _ slices_S250000x64_S100000x64_0_0 (by omega)]
  exact host_unitRows_eq (a := 100000) (b := 64) (val_main_v92 (F := Ideal) x0 x1 x2 x3 x4 x5) guardW
    reducesTo_S100000x64_S100000_d1 h_S_ (by decide) bcast_S100000_S100000x1_0 bcast_S_S100000x1 bcast_S100000x1_S100000x64_0_1

/-- Fourth result: the last 150000 rows of the first layer's pushed array, at unit length. -/
theorem result_items_first : val_main_v125 (F := Ideal) x0 x1 x2 x3 x4 x5
    = extractStridedSlice S150000x64 ![100000, 0]
        (unitRows (a := 250000) (b := 64) guardW (val_main_v28 (F := Ideal) x0 x1 x2 x3 x4 x5)) slices_S250000x64_S150000x64_100000_0 := by
  rw [← unitRows_rows_slice (a := 250000) (b := 64) guardW 100000 _ slices_S250000x64_S150000x64_100000_0 (by omega)]
  exact host_unitRows_eq (a := 150000) (b := 64) (val_main_v93 (F := Ideal) x0 x1 x2 x3 x4 x5) guardW
    reducesTo_S150000x64_S150000_d1 h_S_ (by decide) bcast_S150000_S150000x1_0 bcast_S_S150000x1 bcast_S150000x1_S150000x64_0_1

end Cert.ReferenceIdeal.Stages

end
-- ==== Proof.KernelValue.lean ====
/-
  The idealized kernel's four results, read through its run.

  The fold of buffer contents through @main is read boundary by boundary. Before the first call the host lines build
  the joined embeddings, the first propagated array and the first noise slice — the same lines, on the same
  arguments, as the reference's — and the call leaves the first pushed array and the first running sum; the next
  stretch propagates the pushed array it finds, and so on for three layers. Each array met on the way is identified
  with the reference's stage that it equals (the stages are the reference's own operations read one at a time, so this
  needs no arithmetic: a call's result array is `nudgedRows` of the arrays it enters with, and so is the reference's
  pushed stage). The first normalising call turns the last running sum, times a quarter, into unit rows; the second
  does the same to the first pushed array times one; the closing slices keep the first 100000 and the last 150000
  rows of each. These are the reference's four results.
-/
import proofs.«174214_j26199300505700_1_alg».proof.Proof.WholeRun
import proofs.«174214_j26199300505700_1_alg».proof.Proof.Layer0
import proofs.«174214_j26199300505700_1_alg».proof.Proof.Layer1
import proofs.«174214_j26199300505700_1_alg».proof.Proof.Layer2
import proofs.«174214_j26199300505700_1_alg».proof.Proof.Norm3
import proofs.«174214_j26199300505700_1_alg».proof.Proof.Norm4
import proofs.«174214_j26199300505700_1_alg».proof.Proof.RefStages
import Idealize.ShloMosaic.Lib.StableHlo.Run

set_option maxRecDepth 16384

noncomputable section

namespace Cert.KernelIdeal.Results

open Cert.KernelIdeal Cert.KernelIdeal.Gen Cert.RowNorm Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The six argument arrays as launched, at the types the reference's stages take them. -/
abbrev X0 (c : Dev nD) : (⟨Cert.ReferenceIdeal.S100000x64, .f32⟩ : BufTy).Contents (Elt Ideal) := m ((c : Thread nD τ).loc main_arg0)
abbrev X1 (c : Dev nD) : (⟨Cert.ReferenceIdeal.S150000x64, .f32⟩ : BufTy).Contents (Elt Ideal) := m ((c : Thread nD τ).loc main_arg1)
abbrev X2 (c : Dev nD) : (⟨Cert.ReferenceIdeal.S2000000, .f32⟩ : BufTy).Contents (Elt Ideal) := m ((c : Thread nD τ).loc main_arg2)
abbrev X3 (c : Dev nD) : (⟨Cert.ReferenceIdeal.S3x250000x64, .f32⟩ : BufTy).Contents (Elt Ideal) := m ((c : Thread nD τ).loc main_arg3)
abbrev X4 (c : Dev nD) : (⟨Cert.ReferenceIdeal.S2000000, .i32⟩ : BufTy).Contents (Elt Ideal) := m ((c : Thread nD τ).loc main_arg4)
abbrev X5 (c : Dev nD) : (⟨Cert.ReferenceIdeal.S2000000, .i32⟩ : BufTy).Contents (Elt Ideal) := m ((c : Thread nD τ).loc main_arg5)

/-! ## The arguments the later stretches read are still as launched -/

theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]
  after_results

theorem W2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  dsimp only [hostOps0]
  after_results

theorem W2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  dsimp only [hostOps0]
  after_results

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  dsimp only [hostOps0]
  after_results

theorem W4_arg2 (c : Dev nD) : W4 m ρ c (Proc.devRef .tc main_arg2) = m ((c : Thread nD τ).loc main_arg2) := by
  refine (W4_of_ne m ρ c main_arg2 (by decide)).trans ?_
  show StableHlo.after hostOps1 (W2 m ρ c) (Proc.devRef .tc main_arg2) = _
  dsimp only [hostOps1]
  after_results
  exact W2_arg2 m ρ c

theorem W4_arg3 (c : Dev nD) : W4 m ρ c (Proc.devRef .tc main_arg3) = m ((c : Thread nD τ).loc main_arg3) := by
  refine (W4_of_ne m ρ c main_arg3 (by decide)).trans ?_
  show StableHlo.after hostOps1 (W2 m ρ c) (Proc.devRef .tc main_arg3) = _
  dsimp only [hostOps1]
  after_results
  exact W2_arg3 m ρ c

theorem W4_arg4 (c : Dev nD) : W4 m ρ c (Proc.devRef .tc main_arg4) = m ((c : Thread nD τ).loc main_arg4) := by
  refine (W4_of_ne m ρ c main_arg4 (by decide)).trans ?_
  show StableHlo.after hostOps1 (W2 m ρ c) (Proc.devRef .tc main_arg4) = _
  dsimp only [hostOps1]
  after_results
  exact W2_arg4 m ρ c

theorem W4_arg5 (c : Dev nD) : W4 m ρ c (Proc.devRef .tc main_arg5) = m ((c : Thread nD τ).loc main_arg5) := by
  refine (W4_of_ne m ρ c main_arg5 (by decide)).trans ?_
  show StableHlo.after hostOps1 (W2 m ρ c) (Proc.devRef .tc main_arg5) = _
  dsimp only [hostOps1]
  after_results
  exact W2_arg5 m ρ c

/-! ## The first layer -/

theorem joined (c : Dev nD) : (V1 m ρ c main_v0 : S250000x64.Idx → EReal) = val_main_v0 (F := Ideal) (X0 m c) (X1 m c) := by
  show StableHlo.after hostOps0 (W0 m ρ c) (Proc.devRef .tc main_v0) = _
  dsimp only [hostOps0]
  after_results
  rfl

-- reading a buffer back through a stretch of seventeen host lines takes more than the default budget
set_option maxHeartbeats 8000000 in
theorem raw_one (c : Dev nD) : (V1 m ρ c main_v13 : S250000x64.Idx → EReal)
    = val_main_v13 (F := Ideal) (X0 m c) (X1 m c) (X2 m c) (X4 m c) (X5 m c) := by
  show StableHlo.after hostOps0 (W0 m ρ c) (Proc.devRef .tc main_v13) = _
  dsimp only [hostOps0]
  after_results
  rfl

theorem noise_one (c : Dev nD) : (V1 m ρ c main_v15 : S250000x64.Idx → EReal) = val_main_v16 (F := Ideal) (X3 m c) := by
  show StableHlo.after hostOps0 (W0 m ρ c) (Proc.devRef .tc main_v15) = _
  dsimp only [hostOps0]
  after_results
  rfl

theorem pushed_one (c : Dev nD) : Layer0.pushedArr (V1 m ρ) c = val_main_v28 (F := Ideal) (X0 m c) (X1 m c) (X2 m c) (X3 m c) (X4 m c) (X5 m c) := by
  rw [Cert.ReferenceIdeal.Stages.pushed_one]
  show nudgedRows (a := 250000) (b := 64) 0x179ABE15#32 0x3E4CCCCD#32 (V1 m ρ c main_v13 : S250000x64.Idx → EReal) (V1 m ρ c main_v15 : S250000x64.Idx → EReal) = _
  rw [raw_one, noise_one]

theorem emb_one (c : Dev nD) : W2 m ρ c (Proc.devRef .tc main_v16_0) = val_main_v28 (F := Ideal) (X0 m c) (X1 m c) (X2 m c) (X3 m c) (X4 m c) (X5 m c) :=
  (W2_arr m ρ c 3).trans ((Layer0.final_pushed (V1 m ρ) c).trans (pushed_one m ρ c))

theorem sum_one (c : Dev nD) : W2 m ρ c (Proc.devRef .tc main_v16_1) = val_main_v29 (F := Ideal) (X0 m c) (X1 m c) (X2 m c) (X3 m c) (X4 m c) (X5 m c) := by
  refine (W2_arr m ρ c 4).trans ((Layer0.final_summed (V1 m ρ) c).trans ?_)
  funext i
  show Layer0.sumArr (V1 m ρ) c i + Layer0.pushedArr (V1 m ρ) c i
    = val_main_v0 (F := Ideal) (X0 m c) (X1 m c) i + val_main_v28 (F := Ideal) (X0 m c) (X1 m c) (X2 m c) (X3 m c) (X4 m c) (X5 m c) i
  rw [show Layer0.sumArr (V1 m ρ) c = val_main_v0 (F := Ideal) (X0 m c) (X1 m c) from joined m ρ c, pushed_one]

/-! ## The second layer -/

-- reading a buffer back through a stretch of seventeen host lines takes more than the default budget
set_option maxHeartbeats 8000000 in
theorem raw_two (c : Dev nD) : (V3 m ρ c main_v29 : S250000x64.Idx → EReal) = val_main_v42 (F := Ideal) (X0 m c) (X1 m c) (X2 m c) (X3 m c) (X4 m c) (X5 m c) := by
  show StableHlo.after hostOps1 (W2 m ρ c) (Proc.devRef .tc main_v29) = _
  dsimp only [hostOps1]
  after_results
  rw [emb_one, W2_arg2, W2_arg4, W2_arg5]
  rfl

theorem noise_two (c : Dev nD) : (V3 m ρ c main_v31 : S250000x64.Idx → EReal) = val_main_v45 (F := Ideal) (X3 m c) := by
  show StableHlo.after hostOps1 (W2 m ρ c) (Proc.devRef .tc main_v31) = _
  dsimp only [hostOps1]
  after_results
  rw [W2_arg3]
  rfl

theorem carried_one (c : Dev nD) : (V3 m ρ c main_v16_1 : S250000x64.Idx → EReal) = val_main_v29 (F := Ideal) (X0 m c) (X1 m c) (X2 m c) (X3 m c) (X4 m c) (X5 m c) := by
  show StableHlo.after hostOps1 (W2 m ρ c) (Proc.devRef .tc main_v16_1) = _
  dsimp only [hostOps1]
  after_results
  exact sum_one m ρ c

theorem pushed_two (c : Dev nD) : Layer1.pushedArr (V3 m ρ) c = val_main_v57 (F := Ideal) (X0 m c) (X1 m c) (X2 m c) (X3 m c) (X4 m c) (X5 m c) := by
  rw [Cert.ReferenceIdeal.Stages.pushed_two]
  show nudgedRows (a := 250000) (b := 64) 0x179ABE15#32 0x3E4CCCCD#32 (V3 m ρ c main_v29 : S250000x64.Idx → EReal) (V3 m ρ c main_v31 : S250000x64.Idx → EReal) = _
  rw [raw_two, noise_two]

theorem emb_two (c : Dev nD) : W4 m ρ c (Proc.devRef .tc main_v32_0) = val_main_v57 (F := Ideal) (X0 m c) (X1 m c) (X2 m c) (X3 m c) (X4 m c) (X5 m c) :=
  (W4_arr m ρ c 3).trans ((Layer1.final_pushed (V3 m ρ) c).trans (pushed_two m ρ c))

theorem sum_two (c : Dev nD) : W4 m ρ c (Proc.devRef .tc main_v32_1) = val_main_v58 (F := Ideal) (X0 m c) (X1 m c) (X2 m c) (X3 m c) (X4 m c) (X5 m c) := by
  refine (W4_arr m ρ c 4).trans ((Layer1.final_summed (V3 m ρ) c).trans ?_)
  funext i
  show Layer1.sumArr (V3 m ρ) c i + Layer1.pushedArr (V3 m ρ) c i
    = val_main_v29 (F := Ideal) (X0 m c) (X1 m c) (X2 m c) (X3 m c) (X4 m c) (X5 m c) i + val_main_v57 (F := Ideal) (X0 m c) (X1 m c) (X2 m c) (X3 m c) (X4 m c) (X5 m c) i
  rw [show Layer1.sumArr (V3 m ρ) c = val_main_v29 (F := Ideal) (X0 m c) (X1 m c) (X2 m c) (X3 m c) (X4 m c) (X5 m c) from carried_one m ρ c, pushed_two]

/-! ## The third layer -/

-- reading a buffer back through a stretch of seventeen host lines takes more than the default budget
set_option maxHeartbeats 8000000 in
theorem raw_three (c : Dev nD) : (V5 m ρ c main_v45 : S250000x64.Idx → EReal) = val_main_v71 (F := Ideal) (X0 m c) (X1 m c) (X2 m c) (X3 m c) (X4 m c) (X5 m c) := by
  show StableHlo.after hostOps2 (W4 m ρ c) (Proc.devRef .tc main_v45) = _
  dsimp only [hostOps2]
  after_results
  rw [emb_two, W4_arg2, W4_arg4, W4_arg5]
  rfl

theorem noise_three (c : Dev nD) : (V5 m ρ c main_v47 : S250000x64.Idx → EReal) = val_main_v74 (F := Ideal) (X3 m c) := by
  show StableHlo.after hostOps2 (W4 m ρ c) (Proc.devRef .tc main_v47) = _
  dsimp only [hostOps2]
  after_results
  rw [W4_arg3]
  rfl

theorem carried_two (c : Dev nD) : (V5 m ρ c main_v32_1 : S250000x64.Idx → EReal) = val_main_v58 (F := Ideal) (X0 m c) (X1 m c) (X2 m c) (X3 m c) (X4 m c) (X5 m c) := by
  show StableHlo.after hostOps2 (W4 m ρ c) (Proc.devRef .tc main_v32_1) = _
  dsimp only [hostOps2]
  after_results
  exact sum_two m ρ c

theorem pushed_three (c : Dev nD) : Layer2.pushedArr (V5 m ρ) c = val_main_v86 (F := Ideal) (X0 m c) (X1 m c) (X2 m c) (X3 m c) (X4 m c) (X5 m c) := by
  rw [Cert.ReferenceIdeal.Stages.pushed_three]
  show nudgedRows (a := 250000) (b := 64) 0x179ABE15#32 0x3E4CCCCD#32 (V5 m ρ c main_v45 : S250000x64.Idx → EReal) (V5 m ρ c main_v47 : S250000x64.Idx → EReal) = _
  rw [raw_three, noise_three]

theorem sum_three (c : Dev nD) : W6 m ρ c (Proc.devRef .tc main_v48_1) = val_main_v87 (F := Ideal) (X0 m c) (X1 m c) (X2 m c) (X3 m c) (X4 m c) (X5 m c) := by
  refine (W6_arr m ρ c 4).trans ((Layer2.final_summed (V5 m ρ) c).trans ?_)
  funext i
  show Layer2.sumArr (V5 m ρ) c i + Layer2.pushedArr (V5 m ρ) c i
    = val_main_v58 (F := Ideal) (X0 m c) (X1 m c) (X2 m c) (X3 m c) (X4 m c) (X5 m c) i + val_main_v86 (F := Ideal) (X0 m c) (X1 m c) (X2 m c) (X3 m c) (X4 m c) (X5 m c) i
  rw [show Layer2.sumArr (V5 m ρ) c = val_main_v58 (F := Ideal) (X0 m c) (X1 m c) (X2 m c) (X3 m c) (X4 m c) (X5 m c) from carried_two m ρ c, pushed_three]

/-! ## The two normalising calls -/

/-- The first pushed array is still in its buffer when the last call reads it: nothing in between writes it. -/
theorem kept_emb_one (c : Dev nD) : (V7 m ρ c main_v16_0 : S250000x64.Idx → EReal) = val_main_v28 (F := Ideal) (X0 m c) (X1 m c) (X2 m c) (X3 m c) (X4 m c) (X5 m c) := by
  show W7 m ρ c (Proc.devRef .tc main_v16_0) = _
  refine (W7_of_ne m ρ c main_v16_0 (by decide)).trans ?_
  refine (W6_of_ne m ρ c main_v16_0 (by decide)).trans ?_
  show StableHlo.after hostOps2 (W4 m ρ c) (Proc.devRef .tc main_v16_0) = _
  dsimp only [hostOps2]
  after_results
  refine (W4_of_ne m ρ c main_v16_0 (by decide)).trans ?_
  show StableHlo.after hostOps1 (W2 m ρ c) (Proc.devRef .tc main_v16_0) = _
  dsimp only [hostOps1]
  after_results
  exact emb_one m ρ c

theorem light (c : Dev nD) : W8 m ρ c (Proc.devRef .tc main_v49)
    = unitRows (a := 250000) (b := 64) 0x179ABE15#32 (fun j => val_main_v87 (F := Ideal) (X0 m c) (X1 m c) (X2 m c) (X3 m c) (X4 m c) (X5 m c) j * Ideal.ofBits .f32 0x3E800000#32) := by
  refine (W8_of_ne m ρ c main_v49 (by decide)).trans ?_
  refine (W7_arr m ρ c 1).trans ((Norm3.final_unit (V6 m ρ) c).trans ?_)
  show unitRows (a := 250000) (b := 64) 0x179ABE15#32 (fun i => Norm3.inArr (V6 m ρ) c i * Ideal.ofBits .f32 0x3E800000#32) = _
  rw [show Norm3.inArr (V6 m ρ) c = val_main_v87 (F := Ideal) (X0 m c) (X1 m c) (X2 m c) (X3 m c) (X4 m c) (X5 m c) from sum_three m ρ c]

theorem contrast (c : Dev nD) : W8 m ρ c (Proc.devRef .tc main_v50)
    = unitRows (a := 250000) (b := 64) 0x179ABE15#32 (val_main_v28 (F := Ideal) (X0 m c) (X1 m c) (X2 m c) (X3 m c) (X4 m c) (X5 m c)) := by
  refine (W8_arr m ρ c 1).trans ((Norm4.final_unit (V7 m ρ) c).trans ?_)
  show unitRows (a := 250000) (b := 64) 0x179ABE15#32 (fun i => Norm4.inArr (V7 m ρ) c i * Ideal.ofBits .f32 0x3F800000#32) = _
  rw [show Norm4.inArr (V7 m ρ) c = val_main_v28 (F := Ideal) (X0 m c) (X1 m c) (X2 m c) (X3 m c) (X4 m c) (X5 m c) from kept_emb_one m ρ c]
  exact congrArg (unitRows (a := 250000) (b := 64) 0x179ABE15#32)
    (funext fun i => Cert.Words.mul_one_word (val_main_v28 (F := Ideal) (X0 m c) (X1 m c) (X2 m c) (X3 m c) (X4 m c) (X5 m c) i))

/-! ## The four results -/

theorem users (c : Dev nD) : W9 m ρ c (Proc.devRef .tc main_v51) = val_main_v101 (F := Ideal) (X0 m c) (X1 m c) (X2 m c) (X3 m c) (X4 m c) (X5 m c) := by
  rw [Cert.ReferenceIdeal.Stages.result_users]
  show StableHlo.after hostOps5 (W8 m ρ c) (Proc.devRef .tc main_v51) = _
  dsimp only [hostOps5]
  after_results
  rw [light]

theorem items (c : Dev nD) : W9 m ρ c (Proc.devRef .tc main_v52) = val_main_v109 (F := Ideal) (X0 m c) (X1 m c) (X2 m c) (X3 m c) (X4 m c) (X5 m c) := by
  rw [Cert.ReferenceIdeal.Stages.result_items]
  show StableHlo.after hostOps5 (W8 m ρ c) (Proc.devRef .tc main_v52) = _
  dsimp only [hostOps5]
  after_results
  rw [light]

theorem users_first (c : Dev nD) : W9 m ρ c (Proc.devRef .tc main_v53) = val_main_v117 (F := Ideal) (X0 m c) (X1 m c) (X2 m c) (X3 m c) (X4 m c) (X5 m c) := by
  rw [Cert.ReferenceIdeal.Stages.result_users_first]
  show StableHlo.after hostOps5 (W8 m ρ c) (Proc.devRef .tc main_v53) = _
  dsimp only [hostOps5]
  after_results
  rw [contrast]

theorem items_first (c : Dev nD) : W9 m ρ c (Proc.devRef .tc main_v54) = val_main_v125 (F := Ideal) (X0 m c) (X1 m c) (X2 m c) (X3 m c) (X4 m c) (X5 m c) := by
  rw [Cert.ReferenceIdeal.Stages.result_items_first]
  show StableHlo.after hostOps5 (W8 m ρ c) (Proc.devRef .tc main_v54) = _
  dsimp only [hostOps5]
  after_results
  rw [contrast]

end Cert.KernelIdeal.Results

end
-- ==== Proof.lean ====
/-
  Cert.Claim for the sparse-propagation kernel: three frames, the three sign rewrites, and equal results.

  The kernel and the reference both start from the joined user and item embeddings and run three layers of:
  propagate (gather at the sources, weight, scatter-add at the destinations), then push every entry along its own
  sign by 0.2 times the layer's noise row scaled to unit length, adding each layer to a running sum. The kernel does
  the propagation with the same host lines as the reference and the push-and-add in a blocked call; read over the
  extended reals, a call's two result arrays are the reference's two stages (a row's length involves only that row,
  so blocking changes nothing; the body's spelling of the sign is the sign; the lanes of a row are summed in
  whatever order). At the end the kernel multiplies the sum by a quarter, scales all 250000 rows to unit length and then
  keeps the user rows and the item rows, where the reference divides by four, keeps the rows and then scales them:
  dividing by four is multiplying by a quarter on every extended real, and keeping rows commutes with scaling each
  row. The same holds for the first layer's embeddings, which the kernel multiplies by one first. No law used here needs
  an entry to be finite, so the precondition is never opened.

  The frames of the two kernels are the generated ones; the reference's frame is its generated run with the results
  dropped. The ideal pass rewrote one window per layer-update call ("1.0 carrying x's sign bit" read as ±1 by x < 0):
  each is the rule's own statement.
-/
import proofs.«174214_j26199300505700_1_alg».proof.Defs
import proofs.«174214_j26199300505700_1_alg».proof.Proof.Gen.Kernel
import proofs.«174214_j26199300505700_1_alg».proof.Proof.Gen.Kernel.Skeleton
import proofs.«174214_j26199300505700_1_alg».proof.Proof.GenP.Kernel.Launch
import proofs.«174214_j26199300505700_1_alg».proof.Proof.Gen.Kernel.Points
import proofs.«174214_j26199300505700_1_alg».proof.Proof.GenP.Kernel.Frame
import proofs.«174214_j26199300505700_1_alg».proof.Proof.Gen.KernelIdeal
import proofs.«174214_j26199300505700_1_alg».proof.Proof.Gen.KernelIdeal.Skeleton
import proofs.«174214_j26199300505700_1_alg».proof.Proof.GenP.KernelIdeal.Launch
import proofs.«174214_j26199300505700_1_alg».proof.Proof.Gen.KernelIdeal.Points
import proofs.«174214_j26199300505700_1_alg».proof.Proof.GenP.KernelIdeal.Frame
import proofs.«174214_j26199300505700_1_alg».proof.Proof.Gen.ReferenceIdeal
import proofs.«174214_j26199300505700_1_alg».proof.Proof.Gen.ReferenceIdeal.Run
import proofs.«174214_j26199300505700_1_alg».proof.Proof.Gen.ReferenceIdeal.Read
import proofs.«174214_j26199300505700_1_alg».proof.Proof.Gen.Pre_finite_inputs
import proofs.«174214_j26199300505700_1_alg».proof.Proof.KernelValue
import Idealize.ShloMosaic.Adequacy
import Idealize.ShloMosaic.Init

noncomputable section

namespace Cert.Proof

open Idealize.ShloMosaic Idealize.SL.Sem

/-- The kernel as printed runs and leaves its arguments: the generated frame. -/
theorem frame_kernel : Cert.frame_Kernel := fun m ρ _ => Cert.Kernel.Gen.frame m ρ

/-- The idealized kernel runs and leaves its arguments: the generated frame. -/
theorem frame_kernel_ideal : Cert.frame_KernelIdeal := fun m ρ _ => Cert.KernelIdeal.Gen.frame m ρ

/-- The reference runs and leaves its arguments: its generated run, the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The three rewritten windows, one per layer-update call: each is the sign-bit rule's statement at [5000, 64], f32. -/
theorem preserves : Cert.preserves_Kernel_KernelIdeal :=
  ⟨IdealRules.sign_bit.statement Cert.KernelIdeal.S5000x64 .f32,
   IdealRules.sign_bit.statement Cert.KernelIdeal.S5000x64 .f32,
   IdealRules.sign_bit.statement Cert.KernelIdeal.S5000x64 .f32⟩

/-- From memories that agree on the six arguments both programs run, and both end with the reference's four stages of
    those arguments in their result buffers: the kernel's by its run read through the fold (KernelValue.lean), the
    reference's by its generated run. -/
theorem algebraic : Cert.algebraic_KernelIdeal_ReferenceIdeal := by
  intro m ρ m' ρ' _ hagree
  refine ⟨fun c => Cert.ReferenceIdeal.Read.val_main_v101 (F := Ideal) (Cert.KernelIdeal.Results.X0 m c) (Cert.KernelIdeal.Results.X1 m c) (Cert.KernelIdeal.Results.X2 m c) (Cert.KernelIdeal.Results.X3 m c) (Cert.KernelIdeal.Results.X4 m c) (Cert.KernelIdeal.Results.X5 m c),
    fun c => Cert.ReferenceIdeal.Read.val_main_v109 (F := Ideal) (Cert.KernelIdeal.Results.X0 m c) (Cert.KernelIdeal.Results.X1 m c) (Cert.KernelIdeal.Results.X2 m c) (Cert.KernelIdeal.Results.X3 m c) (Cert.KernelIdeal.Results.X4 m c) (Cert.KernelIdeal.Results.X5 m c),
    fun c => Cert.ReferenceIdeal.Read.val_main_v117 (F := Ideal) (Cert.KernelIdeal.Results.X0 m c) (Cert.KernelIdeal.Results.X1 m c) (Cert.KernelIdeal.Results.X2 m c) (Cert.KernelIdeal.Results.X3 m c) (Cert.KernelIdeal.Results.X4 m c) (Cert.KernelIdeal.Results.X5 m c),
    fun c => Cert.ReferenceIdeal.Read.val_main_v125 (F := Ideal) (Cert.KernelIdeal.Results.X0 m c) (Cert.KernelIdeal.Results.X1 m c) (Cert.KernelIdeal.Results.X2 m c) (Cert.KernelIdeal.Results.X3 m c) (Cert.KernelIdeal.Results.X4 m c) (Cert.KernelIdeal.Results.X5 m c),
    ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v51 (by decide))).trans (Cert.KernelIdeal.Results.users m ρ c),
      (h c _ (Cert.KernelIdeal.Gen.mem_uc Cert.KernelIdeal.main_v52 (by decide))).trans (Cert.KernelIdeal.Results.items m ρ c),
      (h c _ (Cert.KernelIdeal.Gen.mem_uc Cert.KernelIdeal.main_v53 (by decide))).trans (Cert.KernelIdeal.Results.users_first m ρ c),
      (h c _ (Cert.KernelIdeal.Gen.mem_uc Cert.KernelIdeal.main_v54 (by decide))).trans (Cert.KernelIdeal.Results.items_first m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c)⟩
  · refine (θ_run Cert.ReferenceIdeal.defs _ _).mono (fun r h c => ?_) (Cert.ReferenceIdeal.Value.run (F := Ideal) m' ρ')
    obtain ⟨h0, h1, h2, h3, hrest⟩ := h c
    obtain ⟨e0, e1, e2, e3, e4, e5⟩ := hagree c
    refine ⟨h0.trans ?_, h1.trans ?_, h2.trans ?_, h3.trans ?_, hrest⟩
    · rw [Cert.ReferenceIdeal.Read.val_main_v101_eq, e0, e1, e2, e3, e4, e5]
    · rw [Cert.ReferenceIdeal.Read.val_main_v109_eq, e0, e1, e2, e3, e4, e5]
    · rw [Cert.ReferenceIdeal.Read.val_main_v117_eq, e0, e1, e2, e3, e4, e5]
    · rw [Cert.ReferenceIdeal.Read.val_main_v125_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
